-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x16 : Shape := ⟨3, ![4096, 16, 16]⟩
abbrev S_ : Shape := ⟨0, ![]⟩

class Facts : Prop where
  bcast_S_S4096x16x16 : S_.BroadcastsInDim S4096x16x16 (![] : Fin 0 → Fin S4096x16x16.rank)
  reducesTo_S4096x16x16_S_d0_1_2 : S4096x16x16.ReducesTo [0, 1, 2] S_
  h_S_ : 0 < S_.numel

variable [Facts]

def fn {F : FTy → Type} [FloatOps F] (main_arg0 : FVec F S4096x16x16 .f32) (main_arg1 : FVec F S4096x16x16 .f32) : IVec S_ 1 :=
  let main_v0 : FVec F S4096x16x16 .f32 := Host.absf main_arg0
  let main_cst : FVec F S_ .f32 := constant S_ .f32 0x7F800000#32
  let main_v1 : FVec F S4096x16x16 .f32 := broadcastInDim S4096x16x16 ![] bcast_S_S4096x16x16 main_cst
  let main_v2 : IVec S4096x16x16 1 := cmpf .olt main_v0 main_v1
  let main_c : IVec S_ 1 := constantI S_ 1 1#1
  let main_v3 : IVec S_ 1 := (fun x v => Host.reduce IntOp.andi x v reducesTo_S4096x16x16_S_d0_1_2 h_S_) main_v2 main_c
  let main_v4 : FVec F S4096x16x16 .f32 := Host.absf main_arg1
  let main_cst_0 : FVec F S_ .f32 := constant S_ .f32 0x7F800000#32
  let main_v5 : FVec F S4096x16x16 .f32 := broadcastInDim S4096x16x16 ![] bcast_S_S4096x16x16 main_cst_0
  let main_v6 : IVec S4096x16x16 1 := cmpf .olt main_v4 main_v5
  let main_c_1 : IVec S_ 1 := constantI S_ 1 1#1
  let main_v7 : IVec S_ 1 := (fun x v => Host.reduce IntOp.andi x v reducesTo_S4096x16x16_S_d0_1_2 h_S_) main_v6 main_c_1
  let main_v8 : IVec S_ 1 := andi main_v3 main_v7
  main_v8
-- ==== Kernel.lean ====
abbrev S4096x16x16 : Shape := ⟨3, ![4096, 16, 16]⟩
abbrev S4096x256 : Shape := ⟨2, ![4096, 256]⟩
abbrev S1x1 : Shape := ⟨2, ![1, 1]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S4096x16x16, .f32⟩
  | .hbm, ⟨1, _⟩ => ⟨S4096x16x16, .f32⟩
  | .hbm, ⟨2, _⟩ => ⟨S4096x256, .f32⟩
  | .hbm, ⟨3, _⟩ => ⟨S4096x256, .f32⟩
  | .hbm, ⟨4, _⟩ => ⟨S1x1, .f32⟩
  | .hbm, ⟨5, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x1, .f32⟩
  | .local _ .vmem, ⟨9, _⟩ => ⟨S1x1, .f32⟩
  | _, _ => ⟨S4096x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v81 : BitVec 1 := Scalar.cmpi .eq arg0 c15_i32
  let arg1 : BitVec 32 := BitVec.ofNat 32 (i 1).val
  let c15_i32_36 : BitVec 32 := 15#32
  let v82 : BitVec 1 := Scalar.cmpi .eq arg1 c15_i32_36
  let v83 : BitVec 1 := Scalar.andi v81 v82
  let v84 : BitVec 32 := Scalar.extui v83
  let c0_i32_37 : BitVec 32 := 0#32
  let v85 : BitVec 1 := Scalar.cmpi .ne v84 c0_i32_37
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S4096x16x16_S4096x256 : S4096x16x16.ShapeCasts S4096x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S256x256_S256 : S256x256.Reduces [1] S256
  shapeCasts_S256_S256x1 : S256.ShapeCasts S256x1
  broadcasts_S256x1_S256x256 : S256x1.Broadcasts S256x256
  broadcasts_S1x256_S256x256 : S1x256.Broadcasts S256x256
  reduces_S256x1_S1 : S256x1.Reduces [0] S1
  shapeCasts_S1_S1x1 : S1.ShapeCasts S1x1
  shapeCasts_S1x1_S_ : S1x1.ShapeCasts S_
  dot_S1x256_S256x256_S1x256_1_1_0_0_n_n_wf : DotDims.WF S1x256 S256x256 S1x256 [1] [1] [0] [0] [] []
  dot_S256x256_S256x256_S256x256_1_1_0_0_n_n_wf : DotDims.WF S256x256 S256x256 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S4096x256.size a
  hwx0_1 : ∀ i : grid0.Coords, EltTy.bits .f32 = 32 ∨ (Rect.block (s := S4096x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1x256_S256x256_S1x256_1_1_0_0_n_n : DotDims S1x256 S256x256 S1x256 where
  lhsContracting := [1]
  rhsContracting := [1]
  lhsNonContracting := [0]
  rhsNonContracting := [0]
  lhsBatch := []
  rhsBatch := []
  wf := dot_S1x256_S256x256_S1x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x16x16 : Shape := ⟨3, ![4096, 16, 16]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4096x16x16, .f32⟩
  | .hbm, ⟨1, _⟩ => ⟨S4096x16x16, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x256, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096, .f32⟩
  | .hbm, ⟨37, _⟩ => ⟨S4096x256, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S_, .f32⟩
  | .hbm, ⟨66, _⟩ => ⟨S4096, .f32⟩
  | .hbm, ⟨67, _⟩ => ⟨S4096x256, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S1x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S4096x4096, .f32⟩
  | .hbm, ⟨86, _⟩ => ⟨S4096x4096, .f32⟩
  | .hbm, ⟨87, _⟩ => ⟨S4096x4096, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S4096x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_13 : Ref sig .tc := ⟨.hbm, 65, rfl⟩
abbrev main_v49 : Ref sig .tc := ⟨.hbm, 66, rfl⟩
abbrev main_v50 : Ref sig .tc := ⟨.hbm, 67, rfl⟩
abbrev main_cst_14 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_15 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_16 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_17 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_18 : Ref sig .tc := ⟨.hbm, 88, rfl⟩
abbrev main_v67 : Ref sig .tc := ⟨.hbm, 89, rfl⟩
abbrev main_cst_19 : Ref sig .tc := ⟨.hbm, 90, rfl⟩
abbrev main_v68 : Ref sig .tc := ⟨.hbm, 91, rfl⟩
abbrev main_cst_20 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  shapeCasts_S4096x16x16_S4096x256 : S4096x16x16.ShapeCasts S4096x256
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x256_S4096x256_S4096x4096_1_1_0_0_n_n_wf : DotDims.WF S4096x256 S4096x256 S4096x4096 [1] [1] [0] [0] [] []

variable [Facts₀]

def dot_S4096x256_S4096x256_S4096x4096_1_1_0_0_n_n : DotDims S4096x256 S4096x256 S4096x4096 where
  lhsContracting := [1]
  rhsContracting := [1]
  lhsNonContracting := [0]
  rhsNonContracting := [0]
  lhsBatch := []
  rhsBatch := []
  wf := dot_S4096x256_S4096x256_S4096x4096_1_1_0_0_n_n_wf

class Facts : Prop extends Facts₀ where

variable [Facts]
-- ==== Proof.K.Step.lean ====
/-
  The accumulator of the maximum-mean-discrepancy kernel, as plain functions of the staged blocks.

  The kernel walks a 16 x 16 grid of tile pairs (i, j).  At each point it is handed four 256 x 256 blocks — rows
  256 i .. 256 i + 255 of X, rows 256 j .. of X, the same two row ranges of Y — and adds ONE number to a 1 x 1
  scratch cell: (sum of the X-X kernel entries) - 2 (sum of the Y-X entries) + (sum of the Y-Y entries) of that tile
  pair.  The cell is reset to zero before the first point, and after the last point it is divided by 2^24 and written out.

  `step` is one point's update of the cell, `accAt n` the cell before point `n` (so `accAt 256` is the grand total),
  and `iblk w t` the block window `w` is handed at point `t`, read off the arrays as the region finds them (`V1`:
  the launch memory after the two reshapes that flatten each 16 x 16 feature map to 256 columns).
-/
import proofs.«135174_j9603546874013_2_alg».proof.Proof.Gen.Kernel.Launch
import proofs.«135174_j9603546874013_2_alg».proof.Proof.Gen.Kernel.Skeleton
import proofs.«135174_j9603546874013_2_alg».proof.Proof.Gen.Kernel.Points

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- Core `c`'s buffer contents when the region is entered: the launch memory after the two reshapes. -/
abbrev W1 (c : Dev nD) : Valuation τ sig (Elt F) := StableHlo.after hostOps0 (fun b => m (c, b))
/-- The same read at a TensorCore reference. -/
abbrev V1 (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- One point's update of the scratch cell `a` from the four staged blocks: `x0` the X rows of tile i, `x1` the X rows of
    tile j, `x2` the Y rows of tile i, `x3` the Y rows of tile j. -/
def step (x0 x1 x2 x3 : Vec F S256x256 .f32) (a : Vec F S1x1 .f32) : Vec F S1x1 .f32 :=
  k0_pay1 (k0_pay15 (k0_pay8 x0) (k0_pay9 x2) (k0_pay10 x3) (k0_pay11 x0 x3) (k0_pay12 x2 x3) (k0_pay13 x0 x1) (k0_pay14 x3) a)

/-- The scratch cell before point `n`: zero, then one `step` per point over that point's blocks. -/
def accAt (c : Dev nD) : ℕ → Vec F S1x1 .f32
  | 0 => k0_pay3
  | n + 1 => if h : n < cfg0.N then
      step (iblk m c 0 ⟨n, h⟩) (iblk m c 1 ⟨n, h⟩) (iblk m c 2 ⟨n, h⟩) (iblk m c 3 ⟨n, h⟩) (accAt c n)
    else accAt c n

theorem accAt_zero (c : Dev nD) : accAt m c 0 = k0_pay3 := rfl
theorem accAt_succ (c : Dev nD) (t : Fin cfg0.N) :
    accAt m c (t.val + 1) = step (iblk m c 0 t) (iblk m c 1 t) (iblk m c 2 t) (iblk m c 3 t) (accAt m c t.val) := by
  obtain ⟨n, hn⟩ := t
  exact dif_pos hn

/-- What the kernel writes out at the last point: the total over 2^24. -/
def result (c : Dev nD) : Vec F S1x1 .f32 := k0_pay2 (accAt m c 256)

end Cert.Kernel.Hand

end
-- ==== Proof.K.Cases.lean ====
/-
  The control of the kernel body, in closed form over the 16 x 16 grid.

  The body branches twice on its grid position: `first` — both coordinates zero — guards the reset of the scratch cell,
  and `last` — both coordinates fifteen — guards the write of the result.  Over the 256 points in row-major order
  they hold at point 0 only and at point 255 only.  The result window is idle (the body stores nothing into its buffer,
  and the pipeline does not write it back) at every point but the last.
-/
import proofs.«135174_j9603546874013_2_alg».proof.Proof.K.Step
import Idealize.ShloMosaic.Lib.Pipeline.FrameBody
import Idealize.ShloMosaic.Lib.Tactic

noncomputable section

namespace Cert.Kernel.Hand

open Idealize.ShloMosaic Idealize.ShloMosaic.TcCoe Idealize.SL.Sem
open Cert.Kernel Cert.Kernel.Gen

variable {F : FTy → Type} [FloatOps F]

/-- The body's first branch condition, from the grid coordinates: both are zero. -/
abbrev first (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem first_iff : ∀ t : Fin cfg0.N, first (grid0.coords t) ↔ t.val = 0 :=
  (by decide +kernel : ∀ t : Fin grid0.N, first (grid0.coords t) ↔ t.val = 0)

/-- The body's second branch condition: both coordinates are fifteen. -/
abbrev last (i : grid0.Coords) : Prop := k0_cond2 i = 1#1
/-- It holds at point 255 only. -/
theorem last_iff : ∀ t : Fin cfg0.N, last (grid0.coords t) ↔ t.val = 255 :=
  (by decide +kernel : ∀ t : Fin grid0.N, last (grid0.coords t) ↔ t.val = 255)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The result window is idle, and not written back, away from the last point; live at it. -/
theorem idle4 : ∀ t : Fin cfg0.N, ¬last (grid0.coords t) → cfg0.idle 4 (grid0.coords t) = true := by decide +kernel
theorem noFlush4 : ∀ t : Fin cfg0.N, ¬last (grid0.coords t) → (cfg0.win 4).flush t = false := by decide +kernel
theorem live4 : ∀ t : Fin cfg0.N, last (grid0.coords t) → cfg0.idle 4 (grid0.coords t) = false := by decide +kernel

/-- Each window's current staging memref at point `t`, spelled as the pipeline passes it, and its wholeness. -/
abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch cell: a whole scoped buffer of the kernel's own, passed beside the windows. -/
abbrev scM : Memref sig .tc .vmem S1x1 .f32 := Memref.whole cc0_scratch0

end Cert.Kernel.Hand

end
-- ==== Proof.K.Body.lean ====
/-
  What one call of the kernel function does to the buffers it is handed, in each of its three control cases.

  The body is handed four staged 256 x 256 blocks, the result's 1 x 1 staging buffer and the 1 x 1 scratch cell.  It
  branches twice on its grid position: at the first point it resets the cell before anything else, and at the last
  point it writes the result after everything else.  So there are three runs — first (reset, no result), middle
  (neither), last (no reset, result) — and this file states each as a separation-logic triple over ANY contents of
  the buffers, for every float instance and every ghost algebra:

    * the four input buffers are read whole and handed back as they were found;
    * the scratch cell goes from `a` to `step x0 x1 x2 x3 a` (`Step.lean`), where at the first point `a` is the
      constant the reset has just stored, whatever the cell held before;
    * the result's buffer is untouched except at the last point, where it ends at `k0_pay2` of the cell's new value
      (the total divided by 2^24), whatever it held before.

  Every access is through the rectangle that starts at the origin and spans the whole buffer, so a load reads the
  contents themselves, a store replaces them, and a load after a store reads what was stored.
-/
import proofs.«135174_j9603546874013_2_alg».proof.Proof.K.Cases
import Idealize.ShloMosaic.Lib.Pipeline.Value

-- the executor's walk over the body's two long parts recurses once per statement
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {U : Type} [URA U]

local notation "𝕄" => MT nD τ sig Unit (Elt F) ℕ U ℕ

/-! ## Reading and writing a whole buffer through the rectangle at the origin

Every access of the body is through the rectangle that starts at the origin and has the buffer's own extents: it
is the whole index set, and its placement of an index is the index itself. -/

/-- The origin of a two-axis shape, as the constant-zero offset. -/
theorem origin2 : (![0, 0] : Fin 2 → ℕ) = fun _ => 0 := by funext a; fin_cases a <;> rfl

/-- A load through the rectangle at the origin with the buffer's own extents reads the buffer's contents. -/
theorem readAt_origin {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a run of stores whose LAST one went through that rectangle, the buffer reads as that store's value,
    whatever it held before and whatever the earlier stores wrote. -/
theorem read_writes_origin {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-! ## The three runs of the body

One call of the kernel function, by symbolic execution of its memory operations, in each of its three control
cases. In every case it reads the four staged blocks whole, reads the scratch cell, and overwrites the cell with
`step` of the blocks and of what the cell held; at the first point it has just reset the cell to the constant `k0_pay3` (the broadcast of the float whose bits are all zero), so
the cell it reads is that constant; at the last point it then reads the cell back — the value it has just written — and
writes that value over 2^24 into the result's buffer. The input buffers are handed back as they were found. -/

set_option maxHeartbeats 1000000 in
/-- The first point: the cell, whatever it held, is reset to `k0_pay3` and then updated, so it ends at `step` of the blocks and `k0_pay3`;
    the result's buffer is untouched. -/
theorem run_first (c : Dev nD) (E : Set ℕ) (K : PUnit → sProp 𝕄) (i : grid0.Coords)
    (arg2 : Memref sig .tc .vmem S256x256 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S1x1 .f32) (harg6 : arg6.IsWhole)
    (x0 x1 x2 x3 : Vec F S256x256 .f32) (hf : first i) (hl : ¬last i) (xo : Vec F S1x1 .f32) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ (∃ d, owns (c : Thread nD τ) scM fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) scM fullShare (step x0 x1 x2 x3 k0_pay3)) -∗ K ⟨⟩))
      ⊢ wp frame (wpE (defs₀ (F := F)) Variants.none c none) E (cc0__mmd_kernel i arg2 harg2 arg3 harg3 arg4 harg4 arg5 harg5 arg6 harg6 scM (Memref.isWhole_whole _)) K := by
  simp only [cc0__mmd_kernel_eq_skeleton]; unfold cc0__mmd_kernel_skel
  unfold owns
  iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
  subst hf0; subst hf1; subst hf2; subst hf3
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; exact hfo
    iexact HO
  iexists _; isplitr
  swap; · iexact HS
  ipureintro
  rw [read_writes_origin _ _ origin2 inb_S1x1_S1x1_0_0]
  sl_unfold_run_names
  rw [View.readCov_unit_zero scM.view origin2 inb_S1x1_S1x1_0_0,
    readAt_origin arg2.view f0 origin2, readAt_origin arg3.view f1 origin2, readAt_origin arg4.view f2 origin2,
    readAt_origin arg5.view f3 origin2]
  rfl

set_option maxHeartbeats 1000000 in
/-- A point that is neither first nor last: the cell goes from `a` to `step` of the blocks and `a`; the result's buffer
    is untouched. -/
theorem run_mid (c : Dev nD) (E : Set ℕ) (K : PUnit → sProp 𝕄) (i : grid0.Coords)
    (arg2 : Memref sig .tc .vmem S256x256 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S1x1 .f32) (harg6 : arg6.IsWhole)
    (x0 x1 x2 x3 : Vec F S256x256 .f32) (hf : ¬first i) (hl : ¬last i) (xo : Vec F S1x1 .f32) (a : Vec F S1x1 .f32) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) scM fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) scM fullShare (step x0 x1 x2 x3 a)) -∗ K ⟨⟩))
      ⊢ wp frame (wpE (defs₀ (F := F)) Variants.none c none) E (cc0__mmd_kernel i arg2 harg2 arg3 harg3 arg4 harg4 arg5 harg5 arg6 harg6 scM (Memref.isWhole_whole _)) K := by
  simp only [cc0__mmd_kernel_eq_skeleton]; unfold cc0__mmd_kernel_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  subst hf0; subst hf1; subst hf2; subst hf3; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; exact hfo
    iexact HO
  iexists _; isplitr
  swap; · iexact HS
  ipureintro
  rw [read_writes_origin _ _ origin2 inb_S1x1_S1x1_0_0]
  sl_unfold_run_names
  rw [readAt_origin arg2.view f0 origin2, readAt_origin arg3.view f1 origin2, readAt_origin arg4.view f2 origin2,
    readAt_origin arg5.view f3 origin2, readAt_origin scM.view fs origin2]
  rfl

set_option maxHeartbeats 1000000 in
/-- The last point: the cell goes from `a` to `step` of the blocks and `a`, and the result's buffer, whatever it held,
    ends at that value over 2^24. -/
theorem run_last (c : Dev nD) (E : Set ℕ) (K : PUnit → sProp 𝕄) (i : grid0.Coords)
    (arg2 : Memref sig .tc .vmem S256x256 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S1x1 .f32) (harg6 : arg6.IsWhole)
    (x0 x1 x2 x3 : Vec F S256x256 .f32) (hf : ¬first i) (hl : last i) (a : Vec F S1x1 .f32) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) scM fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (step x0 x1 x2 x3 a)) ∗ owns (c : Thread nD τ) scM fullShare (step x0 x1 x2 x3 a)) -∗ K ⟨⟩))
      ⊢ wp frame (wpE (defs₀ (F := F)) Variants.none c none) E (cc0__mmd_kernel i arg2 harg2 arg3 harg3 arg4 harg4 arg5 harg5 arg6 harg6 scM (Memref.isWhole_whole _)) K := by
  simp only [cc0__mmd_kernel_eq_skeleton]; unfold cc0__mmd_kernel_skel
  unfold owns
  iintro ⟨⟨%f0, %hf0, H0⟩, ⟨%f1, %hf1, H1⟩, ⟨%f2, %hf2, H2⟩, ⟨%f3, %hf3, H3⟩, ⟨%dout, %fo, -, HO⟩, ⟨%fs, %hfs, HS⟩, Hk⟩
  subst hf0; subst hf1; subst hf2; subst hf3; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    rw [read_writes_origin _ _ origin2 inb_S1x1_S1x1_0_0]
    sl_unfold_run_names
    rw [View.readCov_unit_zero scM.view origin2 inb_S1x1_S1x1_0_0,
      readAt_origin arg2.view f0 origin2, readAt_origin arg3.view f1 origin2, readAt_origin arg4.view f2 origin2,
      readAt_origin arg5.view f3 origin2, readAt_origin scM.view fs origin2]
    rfl
  iexists _; isplitr
  swap; · iexact HS
  ipureintro
  sl_unfold_run_names
  rw [read_writes_origin _ _ origin2 inb_S1x1_S1x1_0_0]
  rw [readAt_origin arg2.view f0 origin2, readAt_origin arg3.view f1 origin2, readAt_origin arg4.view f2 origin2,
    readAt_origin arg5.view f3 origin2, readAt_origin scM.view fs origin2]
  rfl

end Cert.Kernel.Hand

end
-- ==== Proof.K.Data.lean ====
/-
  The proof data of the kernel's one pipeline, and the body's obligation at every grid point.

  The pipeline stages five windows: the X rows of tile i and of tile j (two windows on the ONE flattened X array),
  the Y rows of tile i and of tile j (two windows on the flattened Y array) and the 1 x 1 result.  An input's staging
  buffer holds, when the body runs at a point, that point's block of its array — whether it was fetched there or is
  still the block fetched at an earlier point with the same block index — and the body leaves it as it found it.  The
  scratch cell is the body's own: the invariant between points says that before point n > 0 it holds `accAt n`, the
  total of the points before, and before point 0 anything (the body resets it there).  The result's buffer is left
  untouched and not written back until the last point, where the body stores `result` = `accAt 256` / 2^24 into it.
  Each of the two shared arrays is held as two half shares, one per window on it.
-/
import proofs.«135174_j9603546874013_2_alg».proof.Proof.K.Body
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-! ## The invariant between points: the scratch cell -/

/-- The class of invariant a kernel with scratch keeps: the scoped buffers no window stages (here the one scratch cell),
    at some contents, and the generator register at some state — as memrefs owned. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before point `n`: anything in the cell at the first point, the running total afterwards. -/
def PhiS (c : Dev nD) : ℕ → sProp 𝕄
  | 0 => Pipeline.ΦA spec0 c
  | n + 1 => iprop(iprop(owns (c : Thread nD τ) scM fullShare (accAt m c (n + 1))) ∗ (∃ r, prngReg c r))

theorem PhiS_zero (c : Dev nD) : PhiS m c 0 = Pipeline.ΦA spec0 c := rfl
theorem PhiS_succ (c : Dev nD) (n : ℕ) :
    PhiS m c (n + 1) = iprop(iprop(owns (c : Thread nD τ) scM fullShare (accAt m c (n + 1))) ∗ (∃ r, prngReg c r)) := rfl
theorem PhiS_pos (c : Dev nD) (n : ℕ) (hz : n ≠ 0) :
    PhiS m c n = iprop(iprop(owns (c : Thread nD τ) scM fullShare (accAt m c n)) ∗ (∃ r, prngReg c r)) := by
  cases n with
  | zero => exact absurd rfl hz
  | succ n => rfl

/-! ## The proof data -/

/-- The arrays as the region finds them; after the body each input's buffer at its block, the result's at `result`
    (consulted at the last point only: elsewhere the window is idle); the invariant `PhiS`; nothing owed; each shared
    array dealt in halves between its two windows. -/
def dat (c : Dev nD) : Dat τ (Elt F) Unit ℕ (Pipeline.UD sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result m c
  Φ t := PhiS m c t.val
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat m c).A w = V1 m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = result m c := by dsimp only [dat]

/-- An input's current staging buffer holds its block at every point, fetched there or not: where it is not fetched
    the block index has not moved since the last fetch, and the body left the block in place. -/
theorem before_0 (c : Dev nD) (t : Fin cfg0.N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat m c).before 2 t d = iblk m c 2 t :=
  ((dat m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat m c).before 3 t d = iblk m c 3 t :=
  ((dat m c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

end Cert.Kernel.Hand

end
-- ==== Proof.K.Obligation.lean ====
/-
  The body obligation: at every grid point, from the invariant, the core's tally and the five staging buffers as the
  pipeline hands them over, the body runs to the next point's invariant and the buffers as the proof data say.

  Three cases, by the point's position.  At point 0 the cell holds anything; the body resets it and adds the first
  tile pair: the cell ends at `accAt 1`.  At a point strictly between the cell goes from `accAt t` to `accAt (t + 1)`.
  At point 255 also, and the body then writes `accAt 256` / 2^24 into the result's buffer.  Away from the last point
  the result's buffer comes back exactly as it was handed over.
-/
import proofs.«135174_j9603546874013_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-- What the body is called with at point `t`, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d)))

/-- and what it returns. -/
def bodyPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t
    ∗ (dat m c).leavesExact 3 t ∗ (dat m c).leavesExact 4 t)

theorem Phi_castSucc (c : Dev nD) (t : Fin cfg0.N) : (dat m c).Φ t.castSucc = PhiS m c t.val := by
  dsimp only [dat]; simp only [Fin.coe_castSucc]

theorem leaves_0 (c : Dev nD) (t : Fin cfg0.N) :
    (dat m c).leavesExact 0 t = owns (c : Thread nD τ) (ms0 t) fullShare (iblk m c 0 t) := by
  unfold Dat.leavesExact; rw [live0 t, after_0]
theorem leaves_1 (c : Dev nD) (t : Fin cfg0.N) :
    (dat m c).leavesExact 1 t = owns (c : Thread nD τ) (ms1 t) fullShare (iblk m c 1 t) := by
  unfold Dat.leavesExact; rw [live1 t, after_1]
theorem leaves_2 (c : Dev nD) (t : Fin cfg0.N) :
    (dat m c).leavesExact 2 t = owns (c : Thread nD τ) (ms2 t) fullShare (iblk m c 2 t) := by
  unfold Dat.leavesExact; rw [live2 t, after_2]
theorem leaves_3 (c : Dev nD) (t : Fin cfg0.N) :
    (dat m c).leavesExact 3 t = owns (c : Thread nD τ) (ms3 t) fullShare (iblk m c 3 t) := by
  unfold Dat.leavesExact; rw [live3 t, after_3]

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).owesAt () t.succ = (dat m c).owesAt () t.castSucc from rfl]
  rw [show (dat m c).Φ t.succ = PhiS m c (t.val + 1) from rfl, PhiS_succ, Phi_castSucc]
  rw [leaves_0, leaves_1, leaves_2, leaves_3]
  have hN : t.val < 256 := lt_of_lt_of_eq t.isLt (show cfg0.N = 256 from N_0)
  rw [accAt_succ m c t]
  by_cases hl : t.val = 255
  · -- the last point: accumulate, then write the result
    have hz : t.val ≠ 0 := by omega
    have h256 : t.val + 1 = 256 := by omega
    have hres : result m c = k0_pay2 (step (iblk m c 0 t) (iblk m c 1 t) (iblk m c 2 t) (iblk m c 3 t) (accAt m c t.val)) := by
      unfold result; rw [← accAt_succ m c t, h256]
    rw [show (dat m c).leavesExact 4 t = owns (c : Thread nD τ) (ms4 t) fullShare ((dat m c).after 4 t) from by
      unfold Dat.leavesExact; rw [live4 t ((last_iff t).mpr hl)], after_4, hres]
    rw [PhiS_pos m c _ hz]
    iintro ⟨⟨HS, Hg⟩, Ho, ⟨%d0, H0⟩, ⟨%d1, H1⟩, ⟨%d2, H2⟩, ⟨%d3, H3⟩, ⟨%d4, H4⟩⟩
    iapply (run_last c Set.univ _ (grid0.coords t) _ _ _ _ _ _ _ _ _ _ (iblk m c 0 t) (iblk m c 1 t) (iblk m c 2 t) (iblk m c 3 t)
      (fun h => hz ((first_iff t).mp h)) ((last_iff t).mpr hl) (accAt m c t.val))
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hnl : ¬last (grid0.coords t) := fun h => hl ((last_iff t).mp h)
    rw [Dat.leavesExact_idle (dat m c) 4 t (idle4 t hnl) (noFlush4 t hnl)]
    by_cases hz : t.val = 0
    · -- the first point: the cell at anything; reset, then accumulate
      rw [hz, accAt_zero, PhiS_zero, PhiA_eq]
      iintro ⟨⟨HS, Hg⟩, Ho, ⟨%d0, H0⟩, ⟨%d1, H1⟩, ⟨%d2, H2⟩, ⟨%d3, H3⟩, ⟨%d4, H4⟩⟩
      iapply (run_first c Set.univ _ (grid0.coords t) _ _ _ _ _ _ _ _ _ _ (iblk m c 0 t) (iblk m c 1 t) (iblk m c 2 t) (iblk m c 3 t)
        ((first_iff t).mpr hz) hnl ((dat m c).before 4 t d4))
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · -- a point between: accumulate
      rw [PhiS_pos m c _ hz]
      iintro ⟨⟨HS, Hg⟩, Ho, ⟨%d0, H0⟩, ⟨%d1, H1⟩, ⟨%d2, H2⟩, ⟨%d3, H3⟩, ⟨%d4, H4⟩⟩
      iapply (run_mid c Set.univ _ (grid0.coords t) _ _ _ _ _ _ _ _ _ _ (iblk m c 0 t) (iblk m c 1 t) (iblk m c 2 t) (iblk m c 3 t)
        (fun h => hz ((first_iff t).mp h)) hnl ((dat m c).before 4 t d4) (accAt m c t.val))
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) m c) (defs₀ (F := F)) Variants.none () Set.univ := fun t => by
  rw [bigSep_W0, bigSep_W0]
  exact sound_body m c t

/-- What the launch hands the region is the invariant before the first point, -/
theorem Phi_in (c : Dev nD) : Pipeline.ΦA spec0 c ⊢ (dat m c).Φ 0 := by
  rw [show (dat m c).Φ 0 = PhiS m c 0 from rfl, PhiS_zero]
  try exact Idealize.SL.BI.Entails.refl _

/-- and after the last point the invariant gives it back: the cell's contents are forgotten. -/
theorem Phi_out (c : Dev nD) : (dat m c).Φ (Fin.last cfg0.N) ⊢ Pipeline.ΦA spec0 c := by
  rw [show (dat m c).Φ (Fin.last cfg0.N) = PhiS m c (Fin.last cfg0.N).val from rfl,
    PhiS_pos m c _ (by rw [Fin.val_last]; have : cfg0.N = 256 := N_0; omega), PhiA_eq]
  iintro ⟨HS, Hg⟩
  isplitl [HS]
  · iexists _; iexact HS
  iexact Hg

end Cert.Kernel.Hand

end
-- ==== Proof.K.Final.lean ====
/-
  From the one write-back to the array.  The result window does not move over the grid: at every point its block
  is the whole 1 x 1 array.  It is written back at the last grid point only, so after the run the array holds what
  the body left in the window there, the grand total over 2^24.
-/
import proofs.«135174_j9603546874013_2_alg».proof.Proof.K.Data
import Idealize.ShloMosaic.Lib.Pipeline.Value

noncomputable section

namespace Cert.Kernel.Hand

open Idealize.ShloMosaic Idealize.ShloMosaic.TcCoe Idealize.SL.Sem
open Idealize.ShloMosaic.Pipeline (Dat)
open Cert.Kernel Cert.Kernel.Gen

variable {F : FTy → Type} [FloatOps F]
variable (m : (ℓ : Loc nD τ sig) → Buf (Elt F) ℓ)

/-- The last grid point, the tile pair (15, 15). -/
def tLast : Fin cfg0.N := ⟨255, by rw [show cfg0.N = 256 from N_0]; decide⟩

/-- The result window never moves: its block index is (0, 0) at every grid point. -/
theorem result_index : ∀ t : Fin cfg0.N, win0_4.index t (0 : Fin 2) = 0 ∧ win0_4.index t (1 : Fin 2) = 0 :=
  (by decide +kernel : ∀ t : Fin grid0.N, _)

/-- Position `y` of the window's block, at any point, is entry `y` of the array: a block's coordinate is its index
    times the block size plus the coordinate inside the block, and the index is zero. -/
theorem blk_emb (t : Fin cfg0.N) (y : ((cfg0.win 4).xblock (cfg0.grid.coords t)).Idx) :
    ((cfg0.win 4).blk t).view.emb y = y := by
  obtain ⟨e0, e1⟩ := result_index t
  funext a
  apply Fin.ext
  match a with
  | ⟨0, _⟩ => show win0_4.index t (0 : Fin 2) * 1 + 1 * (y 0).val = (y 0).val; omega
  | ⟨1, _⟩ => show win0_4.index t (1 : Fin 2) * 1 + 1 * (y 1).val = (y 1).val; omega

/-- What a point would write back is its block of the one-entry array holding `result`. -/
theorem flushed_eq (c : Dev nD) (t : Fin cfg0.N) :
    (dat m c).flushed 4 t = ((cfg0.win 4).blk t).view.read (Elt F) (result m c) := by
  show (cfg0.win 4).cut (grid0.coords t) ((dat m c).after 4 t) = _
  rw [after_4]
  funext y
  rw [View.read_apply]
  show result m c y = result m c (((cfg0.win 4).blk t).view.emb y)
  rw [blk_emb]

/-- An entry of the array is in point `t`'s block iff each coordinate is in the block's range on its axis. -/
theorem mem_blk (t : Fin cfg0.N) (i : S1x1.Idx) :
    i ∈ ((cfg0.win 4).blk t).view.set
      ↔ ∀ a : Fin 2, win0_4.index t a * S1x1.size a ≤ (i a).val ∧ (i a).val < win0_4.index t a * S1x1.size a + S1x1.size a := by
  show i ∈ ((View.whole main_v2).slice (win0_4.rect t)).set ↔ _
  rw [View.set_slice_whole, Rect.mem_set_unit]
  exact Iff.rfl

/-- The array's one entry is in the block of the last point, the point that writes back. -/
theorem covered (i : S1x1.Idx) :
    ∃ t : Fin cfg0.N, (cfg0.win 4).flush t = true ∧ i ∈ ((cfg0.win 4).blk t).view.set := by
  refine ⟨tLast, (flush0_4 tLast).mpr rfl, ?_⟩
  rw [mem_blk]
  obtain ⟨e0, e1⟩ := result_index tLast
  have h0 : (i 0).val < 1 := (i 0).isLt
  have h1 : (i 1).val < 1 := (i 1).isLt
  intro a
  match a with
  | ⟨0, _⟩ => show win0_4.index tLast (0 : Fin 2) * 1 ≤ (i 0).val ∧ (i 0).val < win0_4.index tLast (0 : Fin 2) * 1 + 1; omega
  | ⟨1, _⟩ => show win0_4.index tLast (1 : Fin 2) * 1 ≤ (i 1).val ∧ (i 1).val < win0_4.index tLast (1 : Fin 2) * 1 + 1; omega

/-- So the result array ends holding `result`. -/
theorem arrAt_result (c : Dev nD) : ((dat m c).arrAt 4 cfg0.N : S1x1.Idx → Elt F .f32) = result m c :=
  (dat m c).arrAt_eq_of_cover 4 (result m c) (fun t _ => flushed_eq m c t) covered

end Cert.Kernel.Hand

end
-- ==== Proof.K.Launch.lean ====
/-
  The launch: @main as three segments — the two reshapes that flatten the inputs, the kernel's region, the reshape of
  the 1 x 1 result to a scalar — and the run of the whole from the launch memory, with the result buffer named.

  Between segments the thread holds every unscoped buffer whole at a known valuation: `W0` (the launch memory), `W1`
  (after the two reshapes: what the region is entered from), `W2` (the region's exit: the result array at what the
  pipeline's one write-back leaves, everything else as entered — the region writes no other array), `W3` (after the
  last reshape).  At the region's entry the buffers behind the windows are taken out of that set and dealt to the
  windows: the flattened X in two half shares to the two windows that read it, the flattened Y likewise, the result
  array whole to its window.  At the exit the halves, still at the entry contents (an input array is never written),
  are joined back into whole buffers.  The two argument arrays are written by no segment, so they end as launched.
-/
import proofs.«135174_j9603546874013_2_alg».proof.Proof.K.Obligation
import proofs.«135174_j9603546874013_2_alg».proof.Proof.K.Final
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The shared arrays: dealt in halves at entry, joined at exit -/

theorem arr_set (w : Fin 5) : (cfg0.win w).arr.view.set = Finset.univ := (arr_whole0 w).set_eq_univ

/-- A buffer held whole at the full share is the same buffer held at the two half shares. -/
theorem half_split (ℓ : Loc nD τ sig) (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
theorem half_join (ℓ : Loc nD τ sig) (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

/-- ENTRY. The three buffers behind the five windows, each whole at the full share at the region-entry contents, are
    the pipeline's arrays at entry: the flattened X dealt in halves to windows 0 and 1, the flattened Y to windows 2
    and 3, the result array to window 4 outright. -/
theorem arrays_of_arrBufs (c : Dev nD) :
    (Pipeline.arrBufs spec0 c (V1 m c) : sProp 𝕄) ⊢ (dat m c).arrays ((dat m c).arrAt · 0) := by
  unfold Pipeline.arrBufs Dat.arrays
  rw [bigSep_W0, BI.bigSep_eq_bigSepL_of_eq [main_v0, main_v1, main_v2] (by decide) (by decide)]
  rw [arr_set 0, arr_set 2, arr_set 4]
  show iprop(((c : Thread nD τ).loc main_v0 ↦{fullShare} V1 m c main_v0) ∗ ((c : Thread nD τ).loc main_v1 ↦{fullShare} V1 m c main_v1) ∗ ((c : Thread nD τ).loc main_v2 ↦{fullShare} V1 m c main_v2))
    ⊢ (iprop(((c : Thread nD τ).loc main_v0 ↦{fullShare.left} V1 m c main_v0) ∗ ((c : Thread nD τ).loc main_v0 ↦{fullShare.right} V1 m c main_v0)
        ∗ ((c : Thread nD τ).loc main_v1 ↦{fullShare.left} V1 m c main_v1) ∗ ((c : Thread nD τ).loc main_v1 ↦{fullShare.right} V1 m c main_v1)
        ∗ ((c : Thread nD τ).loc main_v2 ↦{fullShare} V1 m c main_v2)) : sProp 𝕄)
  refine (BIClass.sep_mono (half_split _ _) (BIClass.sep_mono (half_split _ _) .rfl)).trans ?_
  iintro ⟨⟨H0l, H0r⟩, ⟨H1l, H1r⟩, H2⟩
  isplitl [H0l]; · iexact H0l
  isplitl [H0r]; · iexact H0r
  isplitl [H1l]; · iexact H1l
  isplitl [H1r]; · iexact H1r
  iexact H2

/-! ## The buffer contents at the segment boundaries -/

/-- Core `c`'s buffers at launch. -/
abbrev W0 (c : Dev nD) : Valuation τ sig (Elt F) := fun b => m (c, b)
/-- The result window alone, as a one-window family: the only array the region writes. -/
abbrev outWin : Fin 1 → Pipeline.WinSpec sig grid0.rank := fun _ => spec0 4
/-- At the region's exit: the result array at what the pipeline leaves, every other buffer as entered. -/
def W2 (c : Dev nD) : Valuation τ sig (Elt F) :=
  Pipeline.withArrays outWin c (W1 m c) fun _ => (dat m c).arrAt 4 cfg0.N
theorem W2_v2 (c : Dev nD) : W2 m c (Proc.devRef .tc main_v2) = (dat m c).arrAt 4 cfg0.N := by
  unfold W2; exact Pipeline.withArrays_arr outWin (fun a b _ => Subsingleton.elim a b) c _ _ 0
theorem W2_of_ne (c : Dev nD) (b : Ref sig .tc) (hb : main_v2 ≠ b) :
    W2 m c (Proc.devRef .tc b) = W1 m c (Proc.devRef .tc b) := by
  unfold W2; exact Pipeline.withArrays_of_ne outWin c _ _ b (fun _ => hb)
/-- The same read at a TensorCore reference. -/
abbrev V2 (c : Dev nD) (b : Ref sig .tc) : Buf (Elt F) ((c : Thread nD τ).loc b) := W2 m c (Proc.devRef .tc b)
/-- After the last reshape. -/
def W3 (c : Dev nD) : Valuation τ sig (Elt F) := StableHlo.after hostOps1 (W2 m c)

/-- EXIT. The windows' arrays after the run — the inputs' halves at the entry contents, the result array at what the
    write-back left — are the three buffers whole at the exit contents. -/
theorem arrBufs_of_arrays (c : Dev nD) :
    (dat m c).arrays ((dat m c).arrAt · cfg0.N) ⊢ (Pipeline.arrBufs spec0 c (V2 m c) : sProp 𝕄) := by
  unfold Pipeline.arrBufs Dat.arrays
  rw [bigSep_W0, BI.bigSep_eq_bigSepL_of_eq [main_v0, main_v1, main_v2] (by decide) (by decide)]
  rw [arr_set 0, arr_set 2, arr_set 4]
  have h0 : (dat m c).arrAt 0 cfg0.N = V1 m c main_v0 := ((dat m c).arrAt_in 0 rfl _).trans (A_eq m c 0)
  have h1 : (dat m c).arrAt 1 cfg0.N = V1 m c main_v0 := ((dat m c).arrAt_in 1 rfl _).trans (A_eq m c 1)
  have h2 : (dat m c).arrAt 2 cfg0.N = V1 m c main_v1 := ((dat m c).arrAt_in 2 rfl _).trans (A_eq m c 2)
  have h3 : (dat m c).arrAt 3 cfg0.N = V1 m c main_v1 := ((dat m c).arrAt_in 3 rfl _).trans (A_eq m c 3)
  have e0 : V2 m c main_v0 = V1 m c main_v0 := W2_of_ne m c main_v0 (by decide)
  have e1 : V2 m c main_v1 = V1 m c main_v1 := W2_of_ne m c main_v1 (by decide)
  have e2 : V2 m c main_v2 = (dat m c).arrAt 4 cfg0.N := W2_v2 m c
  show (iprop(((c : Thread nD τ).loc main_v0 ↦{fullShare.left} (dat m c).arrAt 0 cfg0.N) ∗ ((c : Thread nD τ).loc main_v0 ↦{fullShare.right} (dat m c).arrAt 1 cfg0.N)
        ∗ ((c : Thread nD τ).loc main_v1 ↦{fullShare.left} (dat m c).arrAt 2 cfg0.N) ∗ ((c : Thread nD τ).loc main_v1 ↦{fullShare.right} (dat m c).arrAt 3 cfg0.N)
        ∗ ((c : Thread nD τ).loc main_v2 ↦{fullShare} (dat m c).arrAt 4 cfg0.N)) : sProp 𝕄)
    ⊢ iprop(((c : Thread nD τ).loc main_v0 ↦{fullShare} V2 m c main_v0) ∗ ((c : Thread nD τ).loc main_v1 ↦{fullShare} V2 m c main_v1) ∗ ((c : Thread nD τ).loc main_v2 ↦{fullShare} V2 m c main_v2))
  rw [h0, h1, h2, h3, e0, e1, e2]
  iintro ⟨H0l, H0r, H1l, H1r, H2⟩
  isplitl [H0l H0r]
  · iapply (half_join _ _); isplitl [H0l]; · iexact H0l
    iexact H0r
  isplitl [H1l H1r]
  · iapply (half_join _ _); isplitl [H1l]; · iexact H1l
    iexact H1r
  iexact H2

/-- ENTRY, whole: the core's unscoped buffers at the entry contents are the pipeline's arrays and the rest. -/
theorem entry_split (c : Dev nD) :
    (unscopedBufs c (V1 m c) : sProp 𝕄) ⊢ iprop((dat m c).arrays ((dat m c).arrAt · 0) ∗ Pipeline.unscopedRest spec0 c (V1 m c)) := by
  rw [Pipeline.unscopedBufs_split₀ cfgs (0 : Fin 1) winFacts₀0.arr_unscoped c (V1 m c)]
  exact BIClass.sep_mono (arrays_of_arrBufs m c) .rfl

/-- EXIT, whole: the arrays after the run and the rest make the unscoped buffers at the exit contents. -/
theorem exit_join (c : Dev nD) :
    iprop((dat m c).arrays ((dat m c).arrAt · cfg0.N) ∗ Pipeline.unscopedRest spec0 c (V1 m c)) ⊢ (unscopedBufs c (V2 m c) : sProp 𝕄) := by
  rw [Pipeline.unscopedBufs_split₀ cfgs (0 : Fin 1) winFacts₀0.arr_unscoped c (V2 m c)]
  refine BIClass.sep_mono (arrBufs_of_arrays m c) (Entails.of_eq ?_)
  unfold Pipeline.unscopedRest
  exact bigSep_congr fun b hb => by
    rw [show V2 m c b = V1 m c b from W2_of_ne m c b (fun e => (Finset.mem_sdiff.mp hb).2 (Finset.mem_image.mpr ⟨4, Finset.mem_univ _, e⟩))]

/-! ## The arguments end as launched; the result is the scalar reshape of the result array -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No reshape before the region writes an argument. -/
theorem W1_main_arg0 (c : Dev nD) : W1 m c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem W1_main_arg1 (c : Dev nD) : W1 m c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Nor does the region, nor the reshape after it. -/
theorem W3_main_arg0 (c : Dev nD) : W3 m c (Proc.devRef .tc main_arg0) = m ((c : Thread nD τ).loc main_arg0) :=
  (StableHlo.after_of_forall_not_mem (b := Proc.devRef .tc main_arg0) _ _ (List.forall_iff_forall_mem.mp (by
    simp only [hostOps1, List.Forall, StableHlo.reshape_writes, Finset.mem_singleton]
    exact StableHlo.devRef_ne_of_ne (by decide)))).trans ((W2_of_ne m c main_arg0 (by decide)).trans (W1_main_arg0 m c))
theorem W3_main_arg1 (c : Dev nD) : W3 m c (Proc.devRef .tc main_arg1) = m ((c : Thread nD τ).loc main_arg1) :=
  (StableHlo.after_of_forall_not_mem (b := Proc.devRef .tc main_arg1) _ _ (List.forall_iff_forall_mem.mp (by
    simp only [hostOps1, List.Forall, StableHlo.reshape_writes, Finset.mem_singleton]
    exact StableHlo.devRef_ne_of_ne (by decide)))).trans ((W2_of_ne m c main_arg1 (by decide)).trans (W1_main_arg1 m c))
/-- The program's result: the 1 x 1 result array, `accAt 256` / 2^24, reshaped to a scalar. -/
theorem W3_main_v3 (c : Dev nD) :
    (W3 m c (Proc.devRef .tc main_v3) : S_.Idx → Elt F .f32) = shapeCast S_ (result m c) shapeCasts_S1x1_S_ := by
  rw [← arrAt_result m c, ← W2_v2 m c]
  show StableHlo.after hostOps1 (W2 m c) (Proc.devRef .tc main_v3) = _
  after_results
  rfl

end Cert.Kernel.Hand

end
-- ==== Proof.K.Region.lean ====
/-
  The kernel's region as a segment of @main, and the run.

  The region is entered from the thread holding every unscoped buffer at `W1`, the generator register at some state and
  nothing owed.  The arrays go to the pipeline (`entry_split`); the register goes into the body's invariant beside the
  scratch cell, which the launch allocates with the staging buffers; every other unscoped buffer bypasses the region.  At
  the exit the arrays come back (`exit_join`) and the thread holds every unscoped buffer at `W2`.  The kernel has no
  semaphore of its own and owes nothing.  Then @main is the chain reshape, reshape; region; reshape, and the library's
  launch over the three segments gives the run, whose final state is read against the last valuation `W3`.
-/
import proofs.«135174_j9603546874013_2_alg».proof.Proof.K.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- No prefetched table: the one pipeline's admissible contents are trivial. -/
abbrev adm : (p : Fin 1) → (pcfgs (F := F) p).Adm := fun p => (cfgs p).toPCfg_adm
/-- The pipeline's proof data, as a family over the (one) pipeline index: a literal match. -/
def pdats : (p : Fin 1) → (c : Dev nD) → Dat τ (Elt F) Unit ℕ (Pipeline.UD sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tally. -/
abbrev Tₙ (c : Dev nD) : sProp 𝕄 := iprop(StableHlo.held (c : Thread nD τ) (Pipeline.ucRefs τ sig) (W3 m c) ∗ ∃ r, prngReg c r)

set_option backward.isDefEq.respectTransparency.types false in
/-- The region, over the thread state: entered at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := entry_split m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (Phi_in m c)
    unfold Pipeline.ΦA
    iintro ⟨Hp, -, Hr⟩
    isplitl [Hr]; · iexact Hr
    iexact Hp
  hout c := by
    rw [Pipeline.ownSems0_none]
    refine (Phi_out m c).trans ?_
    unfold Pipeline.ΦA
    iintro ⟨Hr, Hp⟩
    isplitl [Hp]; · iexact Hp
    isplitr; · iempintro
    iexact Hr
  hexit c := by
    have hjoin := exit_join m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Run.lean ====
/-
  The run: @main is the chain of its three segments, and the library's launch over them gives, from any memory with
  zero counters, termination without fault in a state whose unscoped buffers are at the last valuation `W3`: the
  result at `accAt 256` / 2^24 as a scalar, the two argument arrays as launched.
-/
import proofs.«135174_j9603546874013_2_alg».proof.Proof.K.Region

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main's three segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, with the result buffer at `accAt 256` / 2^24 as a scalar and the argument arrays as launched. -/
theorem run_main : θ_run defs (onTc (τ := τ) (main (F := F))) ⟨m, fun _ => 0, ρ⟩ (fun r => ∀ c : Dev nD,
      r.2.mem ((c.tc : Thread nD τ).loc main_v3) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ (∃ r, prngReg c r) ∗ ∃ W, owes (c : Thread nD τ) (0 : CellTallies nD τ sig Unit) W)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_main_v3 m c),
       (h c _ (mem_uc main_arg0 (by decide))).trans (W3_main_arg0 m c),
       (h c _ (mem_uc main_arg1 (by decide))).trans (W3_main_arg1 m c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Step.lean ====
/-
  The accumulator of the maximum-mean-discrepancy kernel, as plain functions of the staged blocks.

  The kernel walks a 16 x 16 grid of tile pairs (i, j).  At each point it is handed four 256 x 256 blocks — rows
  256 i .. 256 i + 255 of X, rows 256 j .. of X, the same two row ranges of Y — and adds ONE number to a 1 x 1
  scratch cell: (sum of the X-X kernel entries) - 2 (sum of the Y-X entries) + (sum of the Y-Y entries) of that tile
  pair.  The cell is reset to zero before the first point, and after the last point it is divided by 2^24 and written out.

  `step` is one point's update of the cell, `accAt n` the cell before point `n` (so `accAt 256` is the grand total),
  and `iblk w t` the block window `w` is handed at point `t`, read off the arrays as the region finds them (`V1`:
  the launch memory after the two reshapes that flatten each 16 x 16 feature map to 256 columns).
-/
import proofs.«135174_j9603546874013_2_alg».proof.Proof.Gen.KernelIdeal.Launch
import proofs.«135174_j9603546874013_2_alg».proof.Proof.Gen.KernelIdeal.Skeleton
import proofs.«135174_j9603546874013_2_alg».proof.Proof.Gen.KernelIdeal.Points

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Core `c`'s buffer contents when the region is entered: the launch memory after the two reshapes. -/
abbrev W1 (c : Dev nD) : Valuation τ sig (Elt F) := StableHlo.after hostOps0 (fun b => m (c, b))
/-- The same read at a TensorCore reference. -/
abbrev V1 (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- One point's update of the scratch cell `a` from the four staged blocks: `x0` the X rows of tile i, `x1` the X rows of
    tile j, `x2` the Y rows of tile i, `x3` the Y rows of tile j. -/
def step (x0 x1 x2 x3 : Vec F S256x256 .f32) (a : Vec F S1x1 .f32) : Vec F S1x1 .f32 :=
  k0_pay1 (k0_pay15 (k0_pay8 x0) (k0_pay9 x2) (k0_pay10 x3) (k0_pay11 x0 x3) (k0_pay12 x2 x3) (k0_pay13 x0 x1) (k0_pay14 x3) a)

/-- The scratch cell before point `n`: zero, then one `step` per point over that point's blocks. -/
def accAt (c : Dev nD) : ℕ → Vec F S1x1 .f32
  | 0 => k0_pay3
  | n + 1 => if h : n < cfg0.N then
      step (iblk m c 0 ⟨n, h⟩) (iblk m c 1 ⟨n, h⟩) (iblk m c 2 ⟨n, h⟩) (iblk m c 3 ⟨n, h⟩) (accAt c n)
    else accAt c n

theorem accAt_zero (c : Dev nD) : accAt m c 0 = k0_pay3 := rfl
theorem accAt_succ (c : Dev nD) (t : Fin cfg0.N) :
    accAt m c (t.val + 1) = step (iblk m c 0 t) (iblk m c 1 t) (iblk m c 2 t) (iblk m c 3 t) (accAt m c t.val) := by
  obtain ⟨n, hn⟩ := t
  exact dif_pos hn

/-- What the kernel writes out at the last point: the total over 2^24. -/
def result (c : Dev nD) : Vec F S1x1 .f32 := k0_pay2 (accAt m c 256)

end Cert.KernelIdeal.Hand

end
-- ==== Proof.KI.Cases.lean ====
/-
  The control of the kernel body, in closed form over the 16 x 16 grid.

  The body branches twice on its grid position: `first` — both coordinates zero — guards the reset of the scratch cell,
  and `last` — both coordinates fifteen — guards the write of the result.  Over the 256 points in row-major order
  they hold at point 0 only and at point 255 only.  The result window is idle (the body stores nothing into its buffer,
  and the pipeline does not write it back) at every point but the last.
-/
import proofs.«135174_j9603546874013_2_alg».proof.Proof.KI.Step
import Idealize.ShloMosaic.Lib.Pipeline.FrameBody
import Idealize.ShloMosaic.Lib.Tactic

noncomputable section

namespace Cert.KernelIdeal.Hand

open Idealize.ShloMosaic Idealize.ShloMosaic.TcCoe Idealize.SL.Sem
open Cert.KernelIdeal Cert.KernelIdeal.Gen

variable {F : FTy → Type} [FloatOps F]

/-- The body's first branch condition, from the grid coordinates: both are zero. -/
abbrev first (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem first_iff : ∀ t : Fin cfg0.N, first (grid0.coords t) ↔ t.val = 0 :=
  (by decide +kernel : ∀ t : Fin grid0.N, first (grid0.coords t) ↔ t.val = 0)

/-- The body's second branch condition: both coordinates are fifteen. -/
abbrev last (i : grid0.Coords) : Prop := k0_cond2 i = 1#1
/-- It holds at point 255 only. -/
theorem last_iff : ∀ t : Fin cfg0.N, last (grid0.coords t) ↔ t.val = 255 :=
  (by decide +kernel : ∀ t : Fin grid0.N, last (grid0.coords t) ↔ t.val = 255)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The result window is idle, and not written back, away from the last point; live at it. -/
theorem idle4 : ∀ t : Fin cfg0.N, ¬last (grid0.coords t) → cfg0.idle 4 (grid0.coords t) = true := by decide +kernel
theorem noFlush4 : ∀ t : Fin cfg0.N, ¬last (grid0.coords t) → (cfg0.win 4).flush t = false := by decide +kernel
theorem live4 : ∀ t : Fin cfg0.N, last (grid0.coords t) → cfg0.idle 4 (grid0.coords t) = false := by decide +kernel

/-- Each window's current staging memref at point `t`, spelled as the pipeline passes it, and its wholeness. -/
abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch cell: a whole scoped buffer of the kernel's own, passed beside the windows. -/
abbrev scM : Memref sig .tc .vmem S1x1 .f32 := Memref.whole cc0_scratch0

end Cert.KernelIdeal.Hand

end
-- ==== Proof.KI.Body.lean ====
/-
  What one call of the kernel function does to the buffers it is handed, in each of its three control cases.

  The body is handed four staged 256 x 256 blocks, the result's 1 x 1 staging buffer and the 1 x 1 scratch cell.  It
  branches twice on its grid position: at the first point it resets the cell before anything else, and at the last
  point it writes the result after everything else.  So there are three runs — first (reset, no result), middle
  (neither), last (no reset, result) — and this file states each as a separation-logic triple over ANY contents of
  the buffers, for every float instance and every ghost algebra:

    * the four input buffers are read whole and handed back as they were found;
    * the scratch cell goes from `a` to `step x0 x1 x2 x3 a` (`Step.lean`), where at the first point `a` is the
      constant the reset has just stored, whatever the cell held before;
    * the result's buffer is untouched except at the last point, where it ends at `k0_pay2` of the cell's new value
      (the total divided by 2^24), whatever it held before.

  Every access is through the rectangle that starts at the origin and spans the whole buffer, so a load reads the
  contents themselves, a store replaces them, and a load after a store reads what was stored.
-/
import proofs.«135174_j9603546874013_2_alg».proof.Proof.KI.Cases
import Idealize.ShloMosaic.Lib.Pipeline.Value

-- the executor's walk over the body's two long parts recurses once per statement
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {U : Type} [URA U]

local notation "𝕄" => MT nD τ sig Unit (Elt F) ℕ U ℕ

/-! ## Reading and writing a whole buffer through the rectangle at the origin

Every access of the body is through the rectangle that starts at the origin and has the buffer's own extents: it
is the whole index set, and its placement of an index is the index itself. -/

/-- The origin of a two-axis shape, as the constant-zero offset. -/
theorem origin2 : (![0, 0] : Fin 2 → ℕ) = fun _ => 0 := by funext a; fin_cases a <;> rfl

/-- A load through the rectangle at the origin with the buffer's own extents reads the buffer's contents. -/
theorem readAt_origin {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After a run of stores whose LAST one went through that rectangle, the buffer reads as that store's value,
    whatever it held before and whatever the earlier stores wrote. -/
theorem read_writes_origin {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-! ## The three runs of the body

One call of the kernel function, by symbolic execution of its memory operations, in each of its three control
cases. In every case it reads the four staged blocks whole, reads the scratch cell, and overwrites the cell with
`step` of the blocks and of what the cell held; at the first point it has just reset the cell to the constant `k0_pay3` (the broadcast of the float whose bits are all zero), so
the cell it reads is that constant; at the last point it then reads the cell back — the value it has just written — and
writes that value over 2^24 into the result's buffer. The input buffers are handed back as they were found. -/

set_option maxHeartbeats 1000000 in
/-- The first point: the cell, whatever it held, is reset to `k0_pay3` and then updated, so it ends at `step` of the blocks and `k0_pay3`;
    the result's buffer is untouched. -/
theorem run_first (c : Dev nD) (E : Set ℕ) (K : PUnit → sProp 𝕄) (i : grid0.Coords)
    (arg2 : Memref sig .tc .vmem S256x256 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S1x1 .f32) (harg6 : arg6.IsWhole)
    (x0 x1 x2 x3 : Vec F S256x256 .f32) (hf : first i) (hl : ¬last i) (xo : Vec F S1x1 .f32) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ (∃ d, owns (c : Thread nD τ) scM fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) scM fullShare (step x0 x1 x2 x3 k0_pay3)) -∗ K ⟨⟩))
      ⊢ wp frame (wpE (defs₀ (F := F)) Variants.none c none) E (cc0__mmd_kernel i arg2 harg2 arg3 harg3 arg4 harg4 arg5 harg5 arg6 harg6 scM (Memref.isWhole_whole _)) K := by
  simp only [cc0__mmd_kernel_eq_skeleton]; unfold cc0__mmd_kernel_skel
  unfold owns
  iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
  subst hf0; subst hf1; subst hf2; subst hf3
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; exact hfo
    iexact HO
  iexists _; isplitr
  swap; · iexact HS
  ipureintro
  rw [read_writes_origin _ _ origin2 inb_S1x1_S1x1_0_0]
  sl_unfold_run_names
  rw [View.readCov_unit_zero scM.view origin2 inb_S1x1_S1x1_0_0,
    readAt_origin arg2.view f0 origin2, readAt_origin arg3.view f1 origin2, readAt_origin arg4.view f2 origin2,
    readAt_origin arg5.view f3 origin2]
  rfl

set_option maxHeartbeats 1000000 in
/-- A point that is neither first nor last: the cell goes from `a` to `step` of the blocks and `a`; the result's buffer
    is untouched. -/
theorem run_mid (c : Dev nD) (E : Set ℕ) (K : PUnit → sProp 𝕄) (i : grid0.Coords)
    (arg2 : Memref sig .tc .vmem S256x256 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S1x1 .f32) (harg6 : arg6.IsWhole)
    (x0 x1 x2 x3 : Vec F S256x256 .f32) (hf : ¬first i) (hl : ¬last i) (xo : Vec F S1x1 .f32) (a : Vec F S1x1 .f32) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) scM fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) scM fullShare (step x0 x1 x2 x3 a)) -∗ K ⟨⟩))
      ⊢ wp frame (wpE (defs₀ (F := F)) Variants.none c none) E (cc0__mmd_kernel i arg2 harg2 arg3 harg3 arg4 harg4 arg5 harg5 arg6 harg6 scM (Memref.isWhole_whole _)) K := by
  simp only [cc0__mmd_kernel_eq_skeleton]; unfold cc0__mmd_kernel_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  subst hf0; subst hf1; subst hf2; subst hf3; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; exact hfo
    iexact HO
  iexists _; isplitr
  swap; · iexact HS
  ipureintro
  rw [read_writes_origin _ _ origin2 inb_S1x1_S1x1_0_0]
  sl_unfold_run_names
  rw [readAt_origin arg2.view f0 origin2, readAt_origin arg3.view f1 origin2, readAt_origin arg4.view f2 origin2,
    readAt_origin arg5.view f3 origin2, readAt_origin scM.view fs origin2]
  rfl

set_option maxHeartbeats 1000000 in
/-- The last point: the cell goes from `a` to `step` of the blocks and `a`, and the result's buffer, whatever it held,
    ends at that value over 2^24. -/
theorem run_last (c : Dev nD) (E : Set ℕ) (K : PUnit → sProp 𝕄) (i : grid0.Coords)
    (arg2 : Memref sig .tc .vmem S256x256 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S1x1 .f32) (harg6 : arg6.IsWhole)
    (x0 x1 x2 x3 : Vec F S256x256 .f32) (hf : ¬first i) (hl : last i) (a : Vec F S1x1 .f32) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) scM fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (step x0 x1 x2 x3 a)) ∗ owns (c : Thread nD τ) scM fullShare (step x0 x1 x2 x3 a)) -∗ K ⟨⟩))
      ⊢ wp frame (wpE (defs₀ (F := F)) Variants.none c none) E (cc0__mmd_kernel i arg2 harg2 arg3 harg3 arg4 harg4 arg5 harg5 arg6 harg6 scM (Memref.isWhole_whole _)) K := by
  simp only [cc0__mmd_kernel_eq_skeleton]; unfold cc0__mmd_kernel_skel
  unfold owns
  iintro ⟨⟨%f0, %hf0, H0⟩, ⟨%f1, %hf1, H1⟩, ⟨%f2, %hf2, H2⟩, ⟨%f3, %hf3, H3⟩, ⟨%dout, %fo, -, HO⟩, ⟨%fs, %hfs, HS⟩, Hk⟩
  subst hf0; subst hf1; subst hf2; subst hf3; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    rw [read_writes_origin _ _ origin2 inb_S1x1_S1x1_0_0]
    sl_unfold_run_names
    rw [View.readCov_unit_zero scM.view origin2 inb_S1x1_S1x1_0_0,
      readAt_origin arg2.view f0 origin2, readAt_origin arg3.view f1 origin2, readAt_origin arg4.view f2 origin2,
      readAt_origin arg5.view f3 origin2, readAt_origin scM.view fs origin2]
    rfl
  iexists _; isplitr
  swap; · iexact HS
  ipureintro
  sl_unfold_run_names
  rw [read_writes_origin _ _ origin2 inb_S1x1_S1x1_0_0]
  rw [readAt_origin arg2.view f0 origin2, readAt_origin arg3.view f1 origin2, readAt_origin arg4.view f2 origin2,
    readAt_origin arg5.view f3 origin2, readAt_origin scM.view fs origin2]
  rfl

end Cert.KernelIdeal.Hand

end
-- ==== Proof.KI.Data.lean ====
/-
  The proof data of the kernel's one pipeline, and the body's obligation at every grid point.

  The pipeline stages five windows: the X rows of tile i and of tile j (two windows on the ONE flattened X array),
  the Y rows of tile i and of tile j (two windows on the flattened Y array) and the 1 x 1 result.  An input's staging
  buffer holds, when the body runs at a point, that point's block of its array — whether it was fetched there or is
  still the block fetched at an earlier point with the same block index — and the body leaves it as it found it.  The
  scratch cell is the body's own: the invariant between points says that before point n > 0 it holds `accAt n`, the
  total of the points before, and before point 0 anything (the body resets it there).  The result's buffer is left
  untouched and not written back until the last point, where the body stores `result` = `accAt 256` / 2^24 into it.
  Each of the two shared arrays is held as two half shares, one per window on it.
-/
import proofs.«135174_j9603546874013_2_alg».proof.Proof.KI.Body
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-! ## The invariant between points: the scratch cell -/

/-- The class of invariant a kernel with scratch keeps: the scoped buffers no window stages (here the one scratch cell),
    at some contents, and the generator register at some state — as memrefs owned. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before point `n`: anything in the cell at the first point, the running total afterwards. -/
def PhiS (c : Dev nD) : ℕ → sProp 𝕄
  | 0 => Pipeline.ΦA spec0 c
  | n + 1 => iprop(iprop(owns (c : Thread nD τ) scM fullShare (accAt m c (n + 1))) ∗ (∃ r, prngReg c r))

theorem PhiS_zero (c : Dev nD) : PhiS m c 0 = Pipeline.ΦA spec0 c := rfl
theorem PhiS_succ (c : Dev nD) (n : ℕ) :
    PhiS m c (n + 1) = iprop(iprop(owns (c : Thread nD τ) scM fullShare (accAt m c (n + 1))) ∗ (∃ r, prngReg c r)) := rfl
theorem PhiS_pos (c : Dev nD) (n : ℕ) (hz : n ≠ 0) :
    PhiS m c n = iprop(iprop(owns (c : Thread nD τ) scM fullShare (accAt m c n)) ∗ (∃ r, prngReg c r)) := by
  cases n with
  | zero => exact absurd rfl hz
  | succ n => rfl

/-! ## The proof data -/

/-- The arrays as the region finds them; after the body each input's buffer at its block, the result's at `result`
    (consulted at the last point only: elsewhere the window is idle); the invariant `PhiS`; nothing owed; each shared
    array dealt in halves between its two windows. -/
def dat (c : Dev nD) : Dat τ (Elt F) Unit ℕ (Pipeline.UD sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result m c
  Φ t := PhiS m c t.val
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat m c).A w = V1 m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = result m c := by dsimp only [dat]

/-- An input's current staging buffer holds its block at every point, fetched there or not: where it is not fetched
    the block index has not moved since the last fetch, and the body left the block in place. -/
theorem before_0 (c : Dev nD) (t : Fin cfg0.N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat m c).before 2 t d = iblk m c 2 t :=
  ((dat m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat m c).before 3 t d = iblk m c 3 t :=
  ((dat m c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

end Cert.KernelIdeal.Hand

end
-- ==== Proof.KI.Obligation.lean ====
/-
  The body obligation: at every grid point, from the invariant, the core's tally and the five staging buffers as the
  pipeline hands them over, the body runs to the next point's invariant and the buffers as the proof data say.

  Three cases, by the point's position.  At point 0 the cell holds anything; the body resets it and adds the first
  tile pair: the cell ends at `accAt 1`.  At a point strictly between the cell goes from `accAt t` to `accAt (t + 1)`.
  At point 255 also, and the body then writes `accAt 256` / 2^24 into the result's buffer.  Away from the last point
  the result's buffer comes back exactly as it was handed over.
-/
import proofs.«135174_j9603546874013_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- What the body is called with at point `t`, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d)))

/-- and what it returns. -/
def bodyPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t
    ∗ (dat m c).leavesExact 3 t ∗ (dat m c).leavesExact 4 t)

theorem Phi_castSucc (c : Dev nD) (t : Fin cfg0.N) : (dat m c).Φ t.castSucc = PhiS m c t.val := by
  dsimp only [dat]; simp only [Fin.coe_castSucc]

theorem leaves_0 (c : Dev nD) (t : Fin cfg0.N) :
    (dat m c).leavesExact 0 t = owns (c : Thread nD τ) (ms0 t) fullShare (iblk m c 0 t) := by
  unfold Dat.leavesExact; rw [live0 t, after_0]
theorem leaves_1 (c : Dev nD) (t : Fin cfg0.N) :
    (dat m c).leavesExact 1 t = owns (c : Thread nD τ) (ms1 t) fullShare (iblk m c 1 t) := by
  unfold Dat.leavesExact; rw [live1 t, after_1]
theorem leaves_2 (c : Dev nD) (t : Fin cfg0.N) :
    (dat m c).leavesExact 2 t = owns (c : Thread nD τ) (ms2 t) fullShare (iblk m c 2 t) := by
  unfold Dat.leavesExact; rw [live2 t, after_2]
theorem leaves_3 (c : Dev nD) (t : Fin cfg0.N) :
    (dat m c).leavesExact 3 t = owns (c : Thread nD τ) (ms3 t) fullShare (iblk m c 3 t) := by
  unfold Dat.leavesExact; rw [live3 t, after_3]

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).owesAt () t.succ = (dat m c).owesAt () t.castSucc from rfl]
  rw [show (dat m c).Φ t.succ = PhiS m c (t.val + 1) from rfl, PhiS_succ, Phi_castSucc]
  rw [leaves_0, leaves_1, leaves_2, leaves_3]
  have hN : t.val < 256 := lt_of_lt_of_eq t.isLt (show cfg0.N = 256 from N_0)
  rw [accAt_succ m c t]
  by_cases hl : t.val = 255
  · -- the last point: accumulate, then write the result
    have hz : t.val ≠ 0 := by omega
    have h256 : t.val + 1 = 256 := by omega
    have hres : result m c = k0_pay2 (step (iblk m c 0 t) (iblk m c 1 t) (iblk m c 2 t) (iblk m c 3 t) (accAt m c t.val)) := by
      unfold result; rw [← accAt_succ m c t, h256]
    rw [show (dat m c).leavesExact 4 t = owns (c : Thread nD τ) (ms4 t) fullShare ((dat m c).after 4 t) from by
      unfold Dat.leavesExact; rw [live4 t ((last_iff t).mpr hl)], after_4, hres]
    rw [PhiS_pos m c _ hz]
    iintro ⟨⟨HS, Hg⟩, Ho, ⟨%d0, H0⟩, ⟨%d1, H1⟩, ⟨%d2, H2⟩, ⟨%d3, H3⟩, ⟨%d4, H4⟩⟩
    iapply (run_last c Set.univ _ (grid0.coords t) _ _ _ _ _ _ _ _ _ _ (iblk m c 0 t) (iblk m c 1 t) (iblk m c 2 t) (iblk m c 3 t)
      (fun h => hz ((first_iff t).mp h)) ((last_iff t).mpr hl) (accAt m c t.val))
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hnl : ¬last (grid0.coords t) := fun h => hl ((last_iff t).mp h)
    rw [Dat.leavesExact_idle (dat m c) 4 t (idle4 t hnl) (noFlush4 t hnl)]
    by_cases hz : t.val = 0
    · -- the first point: the cell at anything; reset, then accumulate
      rw [hz, accAt_zero, PhiS_zero, PhiA_eq]
      iintro ⟨⟨HS, Hg⟩, Ho, ⟨%d0, H0⟩, ⟨%d1, H1⟩, ⟨%d2, H2⟩, ⟨%d3, H3⟩, ⟨%d4, H4⟩⟩
      iapply (run_first c Set.univ _ (grid0.coords t) _ _ _ _ _ _ _ _ _ _ (iblk m c 0 t) (iblk m c 1 t) (iblk m c 2 t) (iblk m c 3 t)
        ((first_iff t).mpr hz) hnl ((dat m c).before 4 t d4))
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · -- a point between: accumulate
      rw [PhiS_pos m c _ hz]
      iintro ⟨⟨HS, Hg⟩, Ho, ⟨%d0, H0⟩, ⟨%d1, H1⟩, ⟨%d2, H2⟩, ⟨%d3, H3⟩, ⟨%d4, H4⟩⟩
      iapply (run_mid c Set.univ _ (grid0.coords t) _ _ _ _ _ _ _ _ _ _ (iblk m c 0 t) (iblk m c 1 t) (iblk m c 2 t) (iblk m c 3 t)
        (fun h => hz ((first_iff t).mp h)) hnl ((dat m c).before 4 t d4) (accAt m c t.val))
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) m c) (defs₀ (F := F)) Variants.none () Set.univ := fun t => by
  rw [bigSep_W0, bigSep_W0]
  exact sound_body m c t

/-- What the launch hands the region is the invariant before the first point, -/
theorem Phi_in (c : Dev nD) : Pipeline.ΦA spec0 c ⊢ (dat m c).Φ 0 := by
  rw [show (dat m c).Φ 0 = PhiS m c 0 from rfl, PhiS_zero]
  try exact Idealize.SL.BI.Entails.refl _

/-- and after the last point the invariant gives it back: the cell's contents are forgotten. -/
theorem Phi_out (c : Dev nD) : (dat m c).Φ (Fin.last cfg0.N) ⊢ Pipeline.ΦA spec0 c := by
  rw [show (dat m c).Φ (Fin.last cfg0.N) = PhiS m c (Fin.last cfg0.N).val from rfl,
    PhiS_pos m c _ (by rw [Fin.val_last]; have : cfg0.N = 256 := N_0; omega), PhiA_eq]
  iintro ⟨HS, Hg⟩
  isplitl [HS]
  · iexists _; iexact HS
  iexact Hg

end Cert.KernelIdeal.Hand

end
-- ==== Proof.KI.Final.lean ====
/-
  From the one write-back to the array.  The result window does not move over the grid: at every point its block
  is the whole 1 x 1 array.  It is written back at the last grid point only, so after the run the array holds what
  the body left in the window there, the grand total over 2^24.
-/
import proofs.«135174_j9603546874013_2_alg».proof.Proof.KI.Data
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The last grid point, the tile pair (15, 15). -/
def tLast : Fin cfg0.N := ⟨255, by rw [show cfg0.N = 256 from N_0]; decide⟩

/-- The result window never moves: its block index is (0, 0) at every grid point. -/
theorem result_index : ∀ t : Fin cfg0.N, win0_4.index t (0 : Fin 2) = 0 ∧ win0_4.index t (1 : Fin 2) = 0 :=
  (by decide +kernel : ∀ t : Fin grid0.N, _)

/-- Position `y` of the window's block, at any point, is entry `y` of the array: a block's coordinate is its index
    times the block size plus the coordinate inside the block, and the index is zero. -/
theorem blk_emb (t : Fin cfg0.N) (y : ((cfg0.win 4).xblock (cfg0.grid.coords t)).Idx) :
    ((cfg0.win 4).blk t).view.emb y = y := by
  obtain ⟨e0, e1⟩ := result_index t
  funext a
  apply Fin.ext
  match a with
  | ⟨0, _⟩ => show win0_4.index t (0 : Fin 2) * 1 + 1 * (y 0).val = (y 0).val; omega
  | ⟨1, _⟩ => show win0_4.index t (1 : Fin 2) * 1 + 1 * (y 1).val = (y 1).val; omega

/-- What a point would write back is its block of the one-entry array holding `result`. -/
theorem flushed_eq (c : Dev nD) (t : Fin cfg0.N) :
    (dat m c).flushed 4 t = ((cfg0.win 4).blk t).view.read (Elt F) (result m c) := by
  show (cfg0.win 4).cut (grid0.coords t) ((dat m c).after 4 t) = _
  rw [after_4]
  funext y
  rw [View.read_apply]
  show result m c y = result m c (((cfg0.win 4).blk t).view.emb y)
  rw [blk_emb]

/-- An entry of the array is in point `t`'s block iff each coordinate is in the block's range on its axis. -/
theorem mem_blk (t : Fin cfg0.N) (i : S1x1.Idx) :
    i ∈ ((cfg0.win 4).blk t).view.set
      ↔ ∀ a : Fin 2, win0_4.index t a * S1x1.size a ≤ (i a).val ∧ (i a).val < win0_4.index t a * S1x1.size a + S1x1.size a := by
  show i ∈ ((View.whole main_v2).slice (win0_4.rect t)).set ↔ _
  rw [View.set_slice_whole, Rect.mem_set_unit]
  exact Iff.rfl

/-- The array's one entry is in the block of the last point, the point that writes back. -/
theorem covered (i : S1x1.Idx) :
    ∃ t : Fin cfg0.N, (cfg0.win 4).flush t = true ∧ i ∈ ((cfg0.win 4).blk t).view.set := by
  refine ⟨tLast, (flush0_4 tLast).mpr rfl, ?_⟩
  rw [mem_blk]
  obtain ⟨e0, e1⟩ := result_index tLast
  have h0 : (i 0).val < 1 := (i 0).isLt
  have h1 : (i 1).val < 1 := (i 1).isLt
  intro a
  match a with
  | ⟨0, _⟩ => show win0_4.index tLast (0 : Fin 2) * 1 ≤ (i 0).val ∧ (i 0).val < win0_4.index tLast (0 : Fin 2) * 1 + 1; omega
  | ⟨1, _⟩ => show win0_4.index tLast (1 : Fin 2) * 1 ≤ (i 1).val ∧ (i 1).val < win0_4.index tLast (1 : Fin 2) * 1 + 1; omega

/-- So the result array ends holding `result`. -/
theorem arrAt_result (c : Dev nD) : ((dat m c).arrAt 4 cfg0.N : S1x1.Idx → Elt F .f32) = result m c :=
  (dat m c).arrAt_eq_of_cover 4 (result m c) (fun t _ => flushed_eq m c t) covered

end Cert.KernelIdeal.Hand

end
-- ==== Proof.KI.Launch.lean ====
/-
  The launch: @main as three segments — the two reshapes that flatten the inputs, the kernel's region, the reshape of
  the 1 x 1 result to a scalar — and the run of the whole from the launch memory, with the result buffer named.

  Between segments the thread holds every unscoped buffer whole at a known valuation: `W0` (the launch memory), `W1`
  (after the two reshapes: what the region is entered from), `W2` (the region's exit: the result array at what the
  pipeline's one write-back leaves, everything else as entered — the region writes no other array), `W3` (after the
  last reshape).  At the region's entry the buffers behind the windows are taken out of that set and dealt to the
  windows: the flattened X in two half shares to the two windows that read it, the flattened Y likewise, the result
  array whole to its window.  At the exit the halves, still at the entry contents (an input array is never written),
  are joined back into whole buffers.  The two argument arrays are written by no segment, so they end as launched.
-/
import proofs.«135174_j9603546874013_2_alg».proof.Proof.KI.Obligation
import proofs.«135174_j9603546874013_2_alg».proof.Proof.KI.Final
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The shared arrays: dealt in halves at entry, joined at exit -/

theorem arr_set (w : Fin 5) : (cfg0.win w).arr.view.set = Finset.univ := (arr_whole0 w).set_eq_univ

/-- A buffer held whole at the full share is the same buffer held at the two half shares. -/
theorem half_split (ℓ : Loc nD τ sig) (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
theorem half_join (ℓ : Loc nD τ sig) (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

/-- ENTRY. The three buffers behind the five windows, each whole at the full share at the region-entry contents, are
    the pipeline's arrays at entry: the flattened X dealt in halves to windows 0 and 1, the flattened Y to windows 2
    and 3, the result array to window 4 outright. -/
theorem arrays_of_arrBufs (c : Dev nD) :
    (Pipeline.arrBufs spec0 c (V1 m c) : sProp 𝕄) ⊢ (dat m c).arrays ((dat m c).arrAt · 0) := by
  unfold Pipeline.arrBufs Dat.arrays
  rw [bigSep_W0, BI.bigSep_eq_bigSepL_of_eq [main_v0, main_v1, main_v2] (by decide) (by decide)]
  rw [arr_set 0, arr_set 2, arr_set 4]
  show iprop(((c : Thread nD τ).loc main_v0 ↦{fullShare} V1 m c main_v0) ∗ ((c : Thread nD τ).loc main_v1 ↦{fullShare} V1 m c main_v1) ∗ ((c : Thread nD τ).loc main_v2 ↦{fullShare} V1 m c main_v2))
    ⊢ (iprop(((c : Thread nD τ).loc main_v0 ↦{fullShare.left} V1 m c main_v0) ∗ ((c : Thread nD τ).loc main_v0 ↦{fullShare.right} V1 m c main_v0)
        ∗ ((c : Thread nD τ).loc main_v1 ↦{fullShare.left} V1 m c main_v1) ∗ ((c : Thread nD τ).loc main_v1 ↦{fullShare.right} V1 m c main_v1)
        ∗ ((c : Thread nD τ).loc main_v2 ↦{fullShare} V1 m c main_v2)) : sProp 𝕄)
  refine (BIClass.sep_mono (half_split _ _) (BIClass.sep_mono (half_split _ _) .rfl)).trans ?_
  iintro ⟨⟨H0l, H0r⟩, ⟨H1l, H1r⟩, H2⟩
  isplitl [H0l]; · iexact H0l
  isplitl [H0r]; · iexact H0r
  isplitl [H1l]; · iexact H1l
  isplitl [H1r]; · iexact H1r
  iexact H2

/-! ## The buffer contents at the segment boundaries -/

/-- Core `c`'s buffers at launch. -/
abbrev W0 (c : Dev nD) : Valuation τ sig (Elt F) := fun b => m (c, b)
/-- The result window alone, as a one-window family: the only array the region writes. -/
abbrev outWin : Fin 1 → Pipeline.WinSpec sig grid0.rank := fun _ => spec0 4
/-- At the region's exit: the result array at what the pipeline leaves, every other buffer as entered. -/
def W2 (c : Dev nD) : Valuation τ sig (Elt F) :=
  Pipeline.withArrays outWin c (W1 m c) fun _ => (dat m c).arrAt 4 cfg0.N
theorem W2_v2 (c : Dev nD) : W2 m c (Proc.devRef .tc main_v2) = (dat m c).arrAt 4 cfg0.N := by
  unfold W2; exact Pipeline.withArrays_arr outWin (fun a b _ => Subsingleton.elim a b) c _ _ 0
theorem W2_of_ne (c : Dev nD) (b : Ref sig .tc) (hb : main_v2 ≠ b) :
    W2 m c (Proc.devRef .tc b) = W1 m c (Proc.devRef .tc b) := by
  unfold W2; exact Pipeline.withArrays_of_ne outWin c _ _ b (fun _ => hb)
/-- The same read at a TensorCore reference. -/
abbrev V2 (c : Dev nD) (b : Ref sig .tc) : Buf (Elt F) ((c : Thread nD τ).loc b) := W2 m c (Proc.devRef .tc b)
/-- After the last reshape. -/
def W3 (c : Dev nD) : Valuation τ sig (Elt F) := StableHlo.after hostOps1 (W2 m c)

/-- EXIT. The windows' arrays after the run — the inputs' halves at the entry contents, the result array at what the
    write-back left — are the three buffers whole at the exit contents. -/
theorem arrBufs_of_arrays (c : Dev nD) :
    (dat m c).arrays ((dat m c).arrAt · cfg0.N) ⊢ (Pipeline.arrBufs spec0 c (V2 m c) : sProp 𝕄) := by
  unfold Pipeline.arrBufs Dat.arrays
  rw [bigSep_W0, BI.bigSep_eq_bigSepL_of_eq [main_v0, main_v1, main_v2] (by decide) (by decide)]
  rw [arr_set 0, arr_set 2, arr_set 4]
  have h0 : (dat m c).arrAt 0 cfg0.N = V1 m c main_v0 := ((dat m c).arrAt_in 0 rfl _).trans (A_eq m c 0)
  have h1 : (dat m c).arrAt 1 cfg0.N = V1 m c main_v0 := ((dat m c).arrAt_in 1 rfl _).trans (A_eq m c 1)
  have h2 : (dat m c).arrAt 2 cfg0.N = V1 m c main_v1 := ((dat m c).arrAt_in 2 rfl _).trans (A_eq m c 2)
  have h3 : (dat m c).arrAt 3 cfg0.N = V1 m c main_v1 := ((dat m c).arrAt_in 3 rfl _).trans (A_eq m c 3)
  have e0 : V2 m c main_v0 = V1 m c main_v0 := W2_of_ne m c main_v0 (by decide)
  have e1 : V2 m c main_v1 = V1 m c main_v1 := W2_of_ne m c main_v1 (by decide)
  have e2 : V2 m c main_v2 = (dat m c).arrAt 4 cfg0.N := W2_v2 m c
  show (iprop(((c : Thread nD τ).loc main_v0 ↦{fullShare.left} (dat m c).arrAt 0 cfg0.N) ∗ ((c : Thread nD τ).loc main_v0 ↦{fullShare.right} (dat m c).arrAt 1 cfg0.N)
        ∗ ((c : Thread nD τ).loc main_v1 ↦{fullShare.left} (dat m c).arrAt 2 cfg0.N) ∗ ((c : Thread nD τ).loc main_v1 ↦{fullShare.right} (dat m c).arrAt 3 cfg0.N)
        ∗ ((c : Thread nD τ).loc main_v2 ↦{fullShare} (dat m c).arrAt 4 cfg0.N)) : sProp 𝕄)
    ⊢ iprop(((c : Thread nD τ).loc main_v0 ↦{fullShare} V2 m c main_v0) ∗ ((c : Thread nD τ).loc main_v1 ↦{fullShare} V2 m c main_v1) ∗ ((c : Thread nD τ).loc main_v2 ↦{fullShare} V2 m c main_v2))
  rw [h0, h1, h2, h3, e0, e1, e2]
  iintro ⟨H0l, H0r, H1l, H1r, H2⟩
  isplitl [H0l H0r]
  · iapply (half_join _ _); isplitl [H0l]; · iexact H0l
    iexact H0r
  isplitl [H1l H1r]
  · iapply (half_join _ _); isplitl [H1l]; · iexact H1l
    iexact H1r
  iexact H2

/-- ENTRY, whole: the core's unscoped buffers at the entry contents are the pipeline's arrays and the rest. -/
theorem entry_split (c : Dev nD) :
    (unscopedBufs c (V1 m c) : sProp 𝕄) ⊢ iprop((dat m c).arrays ((dat m c).arrAt · 0) ∗ Pipeline.unscopedRest spec0 c (V1 m c)) := by
  rw [Pipeline.unscopedBufs_split₀ cfgs (0 : Fin 1) winFacts₀0.arr_unscoped c (V1 m c)]
  exact BIClass.sep_mono (arrays_of_arrBufs m c) .rfl

/-- EXIT, whole: the arrays after the run and the rest make the unscoped buffers at the exit contents. -/
theorem exit_join (c : Dev nD) :
    iprop((dat m c).arrays ((dat m c).arrAt · cfg0.N) ∗ Pipeline.unscopedRest spec0 c (V1 m c)) ⊢ (unscopedBufs c (V2 m c) : sProp 𝕄) := by
  rw [Pipeline.unscopedBufs_split₀ cfgs (0 : Fin 1) winFacts₀0.arr_unscoped c (V2 m c)]
  refine BIClass.sep_mono (arrBufs_of_arrays m c) (Entails.of_eq ?_)
  unfold Pipeline.unscopedRest
  exact bigSep_congr fun b hb => by
    rw [show V2 m c b = V1 m c b from W2_of_ne m c b (fun e => (Finset.mem_sdiff.mp hb).2 (Finset.mem_image.mpr ⟨4, Finset.mem_univ _, e⟩))]

/-! ## The arguments end as launched; the result is the scalar reshape of the result array -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No reshape before the region writes an argument. -/
theorem W1_main_arg0 (c : Dev nD) : W1 m c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem W1_main_arg1 (c : Dev nD) : W1 m c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Nor does the region, nor the reshape after it. -/
theorem W3_main_arg0 (c : Dev nD) : W3 m c (Proc.devRef .tc main_arg0) = m ((c : Thread nD τ).loc main_arg0) :=
  (StableHlo.after_of_forall_not_mem (b := Proc.devRef .tc main_arg0) _ _ (List.forall_iff_forall_mem.mp (by
    simp only [hostOps1, List.Forall, StableHlo.reshape_writes, Finset.mem_singleton]
    exact StableHlo.devRef_ne_of_ne (by decide)))).trans ((W2_of_ne m c main_arg0 (by decide)).trans (W1_main_arg0 m c))
theorem W3_main_arg1 (c : Dev nD) : W3 m c (Proc.devRef .tc main_arg1) = m ((c : Thread nD τ).loc main_arg1) :=
  (StableHlo.after_of_forall_not_mem (b := Proc.devRef .tc main_arg1) _ _ (List.forall_iff_forall_mem.mp (by
    simp only [hostOps1, List.Forall, StableHlo.reshape_writes, Finset.mem_singleton]
    exact StableHlo.devRef_ne_of_ne (by decide)))).trans ((W2_of_ne m c main_arg1 (by decide)).trans (W1_main_arg1 m c))
/-- The program's result: the 1 x 1 result array, `accAt 256` / 2^24, reshaped to a scalar. -/
theorem W3_main_v3 (c : Dev nD) :
    (W3 m c (Proc.devRef .tc main_v3) : S_.Idx → Elt F .f32) = shapeCast S_ (result m c) shapeCasts_S1x1_S_ := by
  rw [← arrAt_result m c, ← W2_v2 m c]
  show StableHlo.after hostOps1 (W2 m c) (Proc.devRef .tc main_v3) = _
  after_results
  rfl

end Cert.KernelIdeal.Hand

end
-- ==== Proof.KI.Region.lean ====
/-
  The kernel's region as a segment of @main, and the run.

  The region is entered from the thread holding every unscoped buffer at `W1`, the generator register at some state and
  nothing owed.  The arrays go to the pipeline (`entry_split`); the register goes into the body's invariant beside the
  scratch cell, which the launch allocates with the staging buffers; every other unscoped buffer bypasses the region.  At
  the exit the arrays come back (`exit_join`) and the thread holds every unscoped buffer at `W2`.  The kernel has no
  semaphore of its own and owes nothing.  Then @main is the chain reshape, reshape; region; reshape, and the library's
  launch over the three segments gives the run, whose final state is read against the last valuation `W3`.
-/
import proofs.«135174_j9603546874013_2_alg».proof.Proof.KI.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- No prefetched table: the one pipeline's admissible contents are trivial. -/
abbrev adm : (p : Fin 1) → (pcfgs (F := F) p).Adm := fun p => (cfgs p).toPCfg_adm
/-- The pipeline's proof data, as a family over the (one) pipeline index: a literal match. -/
def pdats : (p : Fin 1) → (c : Dev nD) → Dat τ (Elt F) Unit ℕ (Pipeline.UD sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tally. -/
abbrev Tₙ (c : Dev nD) : sProp 𝕄 := iprop(StableHlo.held (c : Thread nD τ) (Pipeline.ucRefs τ sig) (W3 m c) ∗ ∃ r, prngReg c r)

set_option backward.isDefEq.respectTransparency.types false in
/-- The region, over the thread state: entered at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := entry_split m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (Phi_in m c)
    unfold Pipeline.ΦA
    iintro ⟨Hp, -, Hr⟩
    isplitl [Hr]; · iexact Hr
    iexact Hp
  hout c := by
    rw [Pipeline.ownSems0_none]
    refine (Phi_out m c).trans ?_
    unfold Pipeline.ΦA
    iintro ⟨Hr, Hp⟩
    isplitl [Hp]; · iexact Hp
    isplitr; · iempintro
    iexact Hr
  hexit c := by
    have hjoin := exit_join m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run: @main is the chain of its three segments, and the library's launch over them gives, from any memory with
  zero counters, termination without fault in a state whose unscoped buffers are at the last valuation `W3`: the
  result at `accAt 256` / 2^24 as a scalar, the two argument arrays as launched.
-/
import proofs.«135174_j9603546874013_2_alg».proof.Proof.KI.Region

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main's three segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, with the result buffer at `accAt 256` / 2^24 as a scalar and the argument arrays as launched. -/
theorem run_main : θ_run defs (onTc (τ := τ) (main (F := F))) ⟨m, fun _ => 0, ρ⟩ (fun r => ∀ c : Dev nD,
      r.2.mem ((c.tc : Thread nD τ).loc main_v3) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ (∃ r, prngReg c r) ∗ ∃ W, owes (c : Thread nD τ) (0 : CellTallies nD τ sig Unit) W)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_main_v3 m c),
       (h c _ (mem_uc main_arg0 (by decide))).trans (W3_main_arg0 m c),
       (h c _ (mem_uc main_arg1 (by decide))).trans (W3_main_arg1 m c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KI.Layout.lean ====
/-
  The kernel's non-pointwise operations read at one entry, at the ideal instance, and the small facts about real numbers
  inside the extended reals that the payload computations use.

  * A real sum, maximum, product … embedded in the extended reals is the extended-real sum, maximum, product of the
    embedded terms (`coe_sum`, `coe_max`): every value the kernel forms from real inputs is again (the embedding of) a real.
  * The float literals the kernel spells denote 0, 1, 2, -1/2 and 2^24.
  * A column of row totals: a vector of length a viewed as an a x 1 matrix, and such a column repeated along every row of an
    a x b matrix, read entry (i, .) of the vector.
  * A sum along the lanes (the second axis) of a matrix is the sum over the column index; a sum along the sublanes of
    an a x 1 column is the sum over the row index.
  * Both matrix products of the kernel contract the SECOND axis of both operands, so entry (r, c) of the product of L and R
    is the inner product of row r of L with row c of R: the product L * R^T, summed over the 256 features.
-/
import Idealize.ShloMosaic.Lib.ValueLayout
import Idealize.ShloMosaic.PureOps.Ideal.Laws
import proofs.«135174_j9603546874013_2_alg».proof.Proof.KI.Step

noncomputable section

namespace Cert.KernelIdeal.HandValue

open Idealize.ShloMosaic Idealize.ShloMosaic.ValueIdx
open Cert.KernelIdeal Cert.KernelIdeal.Gen

/-! ## Reals inside the extended reals -/

/-- The embedding of a finite sum of reals is the sum of the embeddings. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The embedding is monotone, so it commutes with the maximum. -/
theorem coe_max (x y : ℝ) : ((max x y : ℝ) : EReal) = max (x : EReal) (y : EReal) :=
  EReal.coe_strictMono.monotone.map_max

/-! ## The literals -/

theorem lit_zero : Ideal.ofBits .f32 0x00000000#32 = ((0 : ℝ) : EReal) := by
  rw [Ideal.ofBits_zero_f32, EReal.coe_zero]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_pairs : Ideal.ofBits .f32 0x4B800000#32 = ((16777216 : ℝ) : EReal) := by
  simp [Ideal.ofBits, Ideal.ieee, -EReal.coe_mul]; norm_num

/-! ## Columns -/

variable {α : Type}

/-- A vector of length `a` viewed as an `a x 1` column reads, at `(i, .)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a x 1` column repeated along the rows of an `a x b` matrix reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- A sum along the lanes of an `a x b` matrix (from the zero word), read at row `r`, is the sum over the columns of that
    row. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun c => Fin.ext ?_)
  match c with
  | ⟨0, _⟩ => rfl
  | ⟨1, _⟩ => rfl

/-- A sum along the sublanes of an `a x 1` column (from the zero word) is the sum over its rows. -/
theorem sublaneSum_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  refine Finset.sum_congr rfl fun k _ => congrArg src (funext fun c => Fin.ext ?_)
  match c with
  | ⟨0, _⟩ => rfl
  | ⟨1, _⟩ => show (u : ℕ) = 0; omega

/-! ## The two matrix products -/

/-- Where the two products read their operands: the result's row index picks the left operand's row, the result's column
    index picks the right operand's ROW, and the contraction index is the column of both. -/
theorem sq_lhs_0 (i : S256x256.Idx) (q : dot_S256x256_S256x256_S256x256_1_1_0_0_n_n.contr.Idx) :
    (dot_S256x256_S256x256_S256x256_1_1_0_0_n_n.lhsIdx i q 0).val = (i 0).val := by
  unfold DotDims.lhsIdx
  rw [dif_neg (show ¬(0 : Fin S256x256.rank) ∈ dot_S256x256_S256x256_S256x256_1_1_0_0_n_n.lhsBatch by decide),
    dif_pos (show (0 : Fin S256x256.rank) ∈ dot_S256x256_S256x256_S256x256_1_1_0_0_n_n.lhsNonContracting by decide)]
  rfl
theorem sq_lhs_1 (i : S256x256.Idx) (q : dot_S256x256_S256x256_S256x256_1_1_0_0_n_n.contr.Idx) :
    (dot_S256x256_S256x256_S256x256_1_1_0_0_n_n.lhsIdx i q 1).val = (q ⟨0, by decide⟩).val :=
  dot_S256x256_S256x256_S256x256_1_1_0_0_n_n.lhsIdx_val_of_single rfl i q
theorem sq_rhs_0 (i : S256x256.Idx) (q : dot_S256x256_S256x256_S256x256_1_1_0_0_n_n.contr.Idx) :
    (dot_S256x256_S256x256_S256x256_1_1_0_0_n_n.rhsIdx i q 0).val = (i 1).val := by
  unfold DotDims.rhsIdx
  rw [dif_neg (show ¬(0 : Fin S256x256.rank) ∈ dot_S256x256_S256x256_S256x256_1_1_0_0_n_n.rhsBatch by decide),
    dif_pos (show (0 : Fin S256x256.rank) ∈ dot_S256x256_S256x256_S256x256_1_1_0_0_n_n.rhsNonContracting by decide)]
  rfl
theorem sq_rhs_1 (i : S256x256.Idx) (q : dot_S256x256_S256x256_S256x256_1_1_0_0_n_n.contr.Idx) :
    (dot_S256x256_S256x256_S256x256_1_1_0_0_n_n.rhsIdx i q 1).val = (q ⟨0, by decide⟩).val :=
  dot_S256x256_S256x256_S256x256_1_1_0_0_n_n.rhsIdx_val_of_single rfl i q

/-- Entry `(r, c)` of the 256 x 256 product into a zero accumulator: row `r` of the left operand against row `c` of the
    right one. -/
theorem matmul_sq_apply (L R : FVec Ideal S256x256 .f32) (r c : Fin 256) :
    matmul dot_S256x256_S256x256_S256x256_1_1_0_0_n_n (some .fp32) L R (constant S256x256 .f32 0x00000000#32) (ix2 r c)
      = ∑ k : Fin 256, L (ix2 r k) * R (ix2 c k) := by
  simp only [matmul]
  rw [Ideal.matmul_constant_zero_apply,
    ← Equiv.sum_comp (contrEquiv1 dot_S256x256_S256x256_S256x256_1_1_0_0_n_n 256 rfl rfl).symm]
  refine Finset.sum_congr rfl fun k _ => ?_
  have hk := contrEquiv1_symm_val dot_S256x256_S256x256_S256x256_1_1_0_0_n_n 256 rfl rfl k
  have el : dot_S256x256_S256x256_S256x256_1_1_0_0_n_n.lhsIdx (ix2 r c)
      ((contrEquiv1 dot_S256x256_S256x256_S256x256_1_1_0_0_n_n 256 rfl rfl).symm k) = ix2 r k :=
    funext fun a => Fin.ext (by
      match a with
      | ⟨0, _⟩ => exact sq_lhs_0 _ _
      | ⟨1, _⟩ => exact (sq_lhs_1 _ _).trans hk)
  have er : dot_S256x256_S256x256_S256x256_1_1_0_0_n_n.rhsIdx (ix2 r c)
      ((contrEquiv1 dot_S256x256_S256x256_S256x256_1_1_0_0_n_n 256 rfl rfl).symm k) = ix2 c k :=
    funext fun a => Fin.ext (by
      match a with
      | ⟨0, _⟩ => exact sq_rhs_0 _ _
      | ⟨1, _⟩ => exact (sq_rhs_1 _ _).trans hk)
  rw [el, er]

theorem row_lhs_0 (i : S1x256.Idx) (q : dot_S1x256_S256x256_S1x256_1_1_0_0_n_n.contr.Idx) :
    (dot_S1x256_S256x256_S1x256_1_1_0_0_n_n.lhsIdx i q 0).val = (i 0).val := by
  unfold DotDims.lhsIdx
  rw [dif_neg (show ¬(0 : Fin S1x256.rank) ∈ dot_S1x256_S256x256_S1x256_1_1_0_0_n_n.lhsBatch by decide),
    dif_pos (show (0 : Fin S1x256.rank) ∈ dot_S1x256_S256x256_S1x256_1_1_0_0_n_n.lhsNonContracting by decide)]
  rfl
theorem row_lhs_1 (i : S1x256.Idx) (q : dot_S1x256_S256x256_S1x256_1_1_0_0_n_n.contr.Idx) :
    (dot_S1x256_S256x256_S1x256_1_1_0_0_n_n.lhsIdx i q 1).val = (q ⟨0, by decide⟩).val :=
  dot_S1x256_S256x256_S1x256_1_1_0_0_n_n.lhsIdx_val_of_single rfl i q
theorem row_rhs_0 (i : S1x256.Idx) (q : dot_S1x256_S256x256_S1x256_1_1_0_0_n_n.contr.Idx) :
    (dot_S1x256_S256x256_S1x256_1_1_0_0_n_n.rhsIdx i q 0).val = (i 1).val := by
  unfold DotDims.rhsIdx
  rw [dif_neg (show ¬(0 : Fin S256x256.rank) ∈ dot_S1x256_S256x256_S1x256_1_1_0_0_n_n.rhsBatch by decide),
    dif_pos (show (0 : Fin S256x256.rank) ∈ dot_S1x256_S256x256_S1x256_1_1_0_0_n_n.rhsNonContracting by decide)]
  rfl
theorem row_rhs_1 (i : S1x256.Idx) (q : dot_S1x256_S256x256_S1x256_1_1_0_0_n_n.contr.Idx) :
    (dot_S1x256_S256x256_S1x256_1_1_0_0_n_n.rhsIdx i q 1).val = (q ⟨0, by decide⟩).val :=
  dot_S1x256_S256x256_S1x256_1_1_0_0_n_n.rhsIdx_val_of_single rfl i q

/-- Entry `(., c)` of the product of a single row with a 256 x 256 matrix into a zero accumulator: the row against row `c`
    of the matrix. -/
theorem matmul_row_apply (L : FVec Ideal S1x256 .f32) (R : FVec Ideal S256x256 .f32) (u : Fin 1) (c : Fin 256) :
    matmul dot_S1x256_S256x256_S1x256_1_1_0_0_n_n (some .fp32) L R (constant S1x256 .f32 0x00000000#32) (ix2 u c)
      = ∑ k : Fin 256, L (ix2 u k) * R (ix2 c k) := by
  simp only [matmul]
  rw [Ideal.matmul_constant_zero_apply,
    ← Equiv.sum_comp (contrEquiv1 dot_S1x256_S256x256_S1x256_1_1_0_0_n_n 256 rfl rfl).symm]
  refine Finset.sum_congr rfl fun k _ => ?_
  have hk := contrEquiv1_symm_val dot_S1x256_S256x256_S1x256_1_1_0_0_n_n 256 rfl rfl k
  have el : dot_S1x256_S256x256_S1x256_1_1_0_0_n_n.lhsIdx (ix2 u c)
      ((contrEquiv1 dot_S1x256_S256x256_S1x256_1_1_0_0_n_n 256 rfl rfl).symm k) = ix2 u k :=
    funext fun a => Fin.ext (by
      match a with
      | ⟨0, _⟩ => exact row_lhs_0 _ _
      | ⟨1, _⟩ => exact (row_lhs_1 _ _).trans hk)
  have er : dot_S1x256_S256x256_S1x256_1_1_0_0_n_n.rhsIdx (ix2 u c)
      ((contrEquiv1 dot_S1x256_S256x256_S1x256_1_1_0_0_n_n 256 rfl rfl).symm k) = ix2 c k :=
    funext fun a => Fin.ext (by
      match a with
      | ⟨0, _⟩ => exact row_rhs_0 _ _
      | ⟨1, _⟩ => exact (row_rhs_1 _ _).trans hk)
  rw [el, er]

end Cert.KernelIdeal.HandValue

end
-- ==== Proof.Spec.lean ====
/-
  What both programs compute, over the reals: the (biased) squared maximum-mean-discrepancy of two samples of
  4096 vectors in R^256 under the Gaussian kernel of bandwidth 1,

      mmd X Y = mean_{m,n} k(X_n, X_m) - 2 mean_{m,n} k(X_n, Y_m) + mean_{m,n} k(Y_n, Y_m),

  with k(a, b) = exp(-d2(a, b) / 2) and d2 the squared distance in the expanded and clamped form both programs use,
  max(|b|^2 + |a|^2 - 2 <b, a>, 0).  The means are over 4096^2 = 2^24 pairs.

  The kernel does not form the 4096 x 4096 planes: it cuts each into 16 x 16 tiles of 256 x 256 pairs and adds, tile
  pair by tile pair, `tile` below to one running total; `rowsOf X i` is the i-th block of 256 rows.  That the
  tile totals add up to the whole (`total_eq`, proved elsewhere) is a regrouping of finite sums of reals.

  The programs' inputs are 4096 x 16 x 16 arrays of extended reals, flattened to 4096 x 256 before anything else
  happens; `flat` reads a flattened input as reals (an infinite entry as 0: under the precondition there is none).
-/
import Idealize.ShloMosaic.PureOps.Ideal
import Idealize.ShloMosaic.Lib.ValueIdx

noncomputable section

namespace Cert.Spec

open Idealize.ShloMosaic

/-- The shape of each input and of its flattening. -/
abbrev SArg : Shape := ⟨3, ![4096, 16, 16]⟩
abbrev SFlat : Shape := ⟨2, ![4096, 256]⟩

/-- Row `n`, column `d` of a flattened input, as a real. -/
def flat (a : SFlat.Idx → EReal) (n : Fin 4096) (d : Fin 256) : ℝ := (a (ValueIdx.ix2 n d)).toReal

/-- The squared norm of a vector. -/
def sqn (a : Fin 256 → ℝ) : ℝ := ∑ d, a d * a d
/-- The squared distance, expanded and clamped at zero. -/
def d2 (a b : Fin 256 → ℝ) : ℝ := max (sqn b + sqn a - 2 * ∑ d, b d * a d) 0
/-- The Gaussian kernel of bandwidth 1. -/
def ker (a b : Fin 256 → ℝ) : ℝ := Real.exp (-(d2 a b) / 2)
/-- The kernel summed over all pairs: row `m` of `B` against row `n` of `A`. -/
def ksum (A B : Fin 4096 → Fin 256 → ℝ) : ℝ := ∑ m : Fin 4096, ∑ n : Fin 4096, ker (A n) (B m)
/-- The discrepancy: the three means, combined as the reference combines them. -/
def mmd (X Y : Fin 4096 → Fin 256 → ℝ) : ℝ :=
  ksum X X / 16777216 - 2 * (ksum X Y / 16777216) + ksum Y Y / 16777216

/-- Block `i` of 256 consecutive rows. -/
def rowsOf (X : Fin 4096 → Fin 256 → ℝ) (i : Fin 16) : Fin 256 → Fin 256 → ℝ :=
  fun r => X ⟨256 * i.val + r.val, by have := i.isLt; have := r.isLt; omega⟩
/-- The kernel summed over one tile: row `r` of `B` against row `c` of `A`. -/
def tsum (A B : Fin 256 → Fin 256 → ℝ) : ℝ := ∑ r : Fin 256, ∑ c : Fin 256, ker (A c) (B r)
/-- What one grid point adds to the running total, from the four blocks it is handed: `xi`, `xj` the X rows of tiles i
    and j, `yi`, `yj` those of Y. -/
def tile (xi xj yi yj : Fin 256 → Fin 256 → ℝ) : ℝ := tsum xi xj - 2 * tsum xi yj + tsum yi yj

/-- The grid point `t` (row-major over the 16 x 16 grid) is the tile pair (t / 16, t % 16). -/
def ti (t : Fin 256) : Fin 16 := ⟨t.val / 16, by have := t.isLt; omega⟩
def tj (t : Fin 256) : Fin 16 := ⟨t.val % 16, by omega⟩
/-- Point `t`'s contribution. -/
def tileAt (X Y : Fin 4096 → Fin 256 → ℝ) (t : Fin 256) : ℝ :=
  tile (rowsOf X (ti t)) (rowsOf X (tj t)) (rowsOf Y (ti t)) (rowsOf Y (tj t))
/-- The running total before point `n`. -/
def running (X Y : Fin 4096 → Fin 256 → ℝ) (n : ℕ) : ℝ := ∑ t ∈ Finset.univ.filter (fun t : Fin 256 => t.val < n), tileAt X Y t

end Cert.Spec

end
-- ==== Proof.KI.Payloads.lean ====
/-
  The kernel's staged values, entry by entry, on real inputs.

  The four blocks handed to a grid point hold real numbers: `r0` the X rows of tile i, `r1` the X rows of tile j, `r2` the
  Y rows of tile i, `r3` the Y rows of tile j (256 rows of 256 features each).  From them the first half of the kernel body
  forms
    * the ROW of squared norms of a block (a row of ones times the entrywise square, contracted over the features);
    * the COLUMN of squared norms of a block (the lane sum of the entrywise square), and that column repeated along rows;
    * the Gram matrices  (row r of one block) . (row c of another);
    * the clamped squared distances  max(|b_r|^2 + |a_c|^2 - 2 <b_r, a_c>, 0).
  Each is an exact expression in the extended reals whose operands are embedded reals, so it is the embedding of the same
  expression over the reals: `Cert.Spec.sqn`, an inner product, `Cert.Spec.d2`.
-/
import proofs.«135174_j9603546874013_2_alg».proof.Proof.KI.Layout
import proofs.«135174_j9603546874013_2_alg».proof.Proof.Spec

noncomputable section

namespace Cert.KernelIdeal.HandValue

open Idealize.ShloMosaic Idealize.ShloMosaic.ValueIdx
open Cert.KernelIdeal Cert.KernelIdeal.Gen Cert.KernelIdeal.Hand Cert.Spec

/-- The row of ones. -/
theorem pay7_apply (i : S1x256.Idx) : k0_pay7 (F := Ideal) i = ((1 : ℝ) : EReal) := lit_one

/-- The row of squared norms of a block, by the product of a row of ones with the entrywise square. -/
theorem rowNorms_real (r : Fin 256 → Fin 256 → ℝ) (x : FVec Ideal S256x256 .f32)
    (hx : ∀ p q, x (ix2 p q) = ((r p q : ℝ) : EReal)) (u : Fin 1) (c : Fin 256) :
    matmul dot_S1x256_S256x256_S1x256_1_1_0_0_n_n (some .fp32) (k0_pay7 (F := Ideal)) (mulf x x)
        (constant S1x256 .f32 0x00000000#32) (ix2 u c) = ((sqn (r c) : ℝ) : EReal) := by
  rw [matmul_row_apply]
  unfold sqn
  rw [coe_sum]
  refine Finset.sum_congr rfl fun k _ => ?_
  rw [pay7_apply, mulf_apply, hx, EReal.coe_one, one_mul, EReal.coe_mul]

theorem pay8_real (r0 : Fin 256 → Fin 256 → ℝ) (x0 : Vec Ideal S256x256 .f32)
    (h0 : ∀ p q, x0 (ix2 p q) = ((r0 p q : ℝ) : EReal)) (u : Fin 1) (c : Fin 256) :
    k0_pay8 (F := Ideal) x0 (ix2 u c) = ((sqn (r0 c) : ℝ) : EReal) := by
  unfold k0_pay8 k0_pay4
  simp only [shapeCast_self]
  exact rowNorms_real r0 x0 h0 u c

theorem pay9_real (r2 : Fin 256 → Fin 256 → ℝ) (x2 : Vec Ideal S256x256 .f32)
    (h2 : ∀ p q, x2 (ix2 p q) = ((r2 p q : ℝ) : EReal)) (u : Fin 1) (c : Fin 256) :
    k0_pay9 (F := Ideal) x2 (ix2 u c) = ((sqn (r2 c) : ℝ) : EReal) := by
  unfold k0_pay9 k0_pay5
  simp only [shapeCast_self]
  exact rowNorms_real r2 x2 h2 u c

/-- The column of squared norms of a block, by the lane sum of the entrywise square. -/
theorem colNorms_real (r : Fin 256 → Fin 256 → ℝ) (x : FVec Ideal S256x256 .f32)
    (hx : ∀ p q, x (ix2 p q) = ((r p q : ℝ) : EReal)) (p : Fin 256) (u : Fin 1) :
    shapeCast S256x1 (multiReduction .add [1] S256 (mulf x x) 0x00000000#32 reduces_S256x256_S256 (.inl rfl) rfl)
        shapeCasts_S256_S256x1 (ix2 p u) = ((sqn (r p) : ℝ) : EReal) := by
  rw [shapeCast_a_a1_apply, laneSum_apply]
  unfold sqn
  rw [coe_sum]
  refine Finset.sum_congr rfl fun k _ => ?_
  rw [mulf_apply, hx, EReal.coe_mul]

theorem pay10_real (r3 : Fin 256 → Fin 256 → ℝ) (x3 : Vec Ideal S256x256 .f32)
    (h3 : ∀ p q, x3 (ix2 p q) = ((r3 p q : ℝ) : EReal)) (p : Fin 256) (u : Fin 1) :
    k0_pay10 (F := Ideal) x3 (ix2 p u) = ((sqn (r3 p) : ℝ) : EReal) := by
  unfold k0_pay10 k0_pay6
  simp only [shapeCast_self]
  exact colNorms_real r3 x3 h3 p u

/-- A Gram matrix: entry `(p, q)` is the inner product of row `p` of the left block with row `q` of the right one. -/
theorem gram_real (rl rr : Fin 256 → Fin 256 → ℝ) (xl xr : FVec Ideal S256x256 .f32)
    (hl : ∀ p q, xl (ix2 p q) = ((rl p q : ℝ) : EReal)) (hr : ∀ p q, xr (ix2 p q) = ((rr p q : ℝ) : EReal)) (p q : Fin 256) :
    matmul dot_S256x256_S256x256_S256x256_1_1_0_0_n_n (some .fp32) xl xr (constant S256x256 .f32 0x00000000#32) (ix2 p q)
      = ((∑ d, rl p d * rr q d : ℝ) : EReal) := by
  rw [matmul_sq_apply, coe_sum]
  refine Finset.sum_congr rfl fun k _ => ?_
  rw [hl, hr, EReal.coe_mul]

theorem pay11_real (r0 r3 : Fin 256 → Fin 256 → ℝ) (x0 x3 : Vec Ideal S256x256 .f32)
    (h0 : ∀ p q, x0 (ix2 p q) = ((r0 p q : ℝ) : EReal)) (h3 : ∀ p q, x3 (ix2 p q) = ((r3 p q : ℝ) : EReal)) (p q : Fin 256) :
    k0_pay11 (F := Ideal) x0 x3 (ix2 p q) = ((∑ d, r3 p d * r0 q d : ℝ) : EReal) := by
  unfold k0_pay11 k0_pay6 k0_pay4
  simp only [shapeCast_self]
  exact gram_real r3 r0 x3 x0 h3 h0 p q

theorem pay12_real (r2 r3 : Fin 256 → Fin 256 → ℝ) (x2 x3 : Vec Ideal S256x256 .f32)
    (h2 : ∀ p q, x2 (ix2 p q) = ((r2 p q : ℝ) : EReal)) (h3 : ∀ p q, x3 (ix2 p q) = ((r3 p q : ℝ) : EReal)) (p q : Fin 256) :
    k0_pay12 (F := Ideal) x2 x3 (ix2 p q) = ((∑ d, r3 p d * r2 q d : ℝ) : EReal) := by
  unfold k0_pay12 k0_pay6 k0_pay5
  simp only [shapeCast_self]
  exact gram_real r3 r2 x3 x2 h3 h2 p q

theorem pay14_real (r3 : Fin 256 → Fin 256 → ℝ) (x3 : Vec Ideal S256x256 .f32)
    (h3 : ∀ p q, x3 (ix2 p q) = ((r3 p q : ℝ) : EReal)) (p q : Fin 256) :
    k0_pay14 (F := Ideal) x3 (ix2 p q) = ((sqn (r3 p) : ℝ) : EReal) := by
  unfold k0_pay14
  rw [broadcastTo_a1_ab_apply]
  exact pay10_real r3 x3 h3 p 0

/-- The clamped squared distance from its three ingredients, all real. -/
theorem clamp_real (nb na g : ℝ) :
    max (((nb : ℝ) : EReal) + ((na : ℝ) : EReal) - Ideal.ofBits .f32 0x40000000#32 * ((g : ℝ) : EReal)) (Ideal.ofBits .f32 0x00000000#32)
      = ((max (nb + na - 2 * g) 0 : ℝ) : EReal) := by
  rw [lit_two, lit_zero, ← EReal.coe_add, ← EReal.coe_mul, ← EReal.coe_sub, ← coe_max]

theorem pay13_real (r0 r1 : Fin 256 → Fin 256 → ℝ) (x0 x1 : Vec Ideal S256x256 .f32)
    (h0 : ∀ p q, x0 (ix2 p q) = ((r0 p q : ℝ) : EReal)) (h1 : ∀ p q, x1 (ix2 p q) = ((r1 p q : ℝ) : EReal)) (p q : Fin 256) :
    k0_pay13 (F := Ideal) x0 x1 (ix2 p q) = ((d2 (r0 q) (r1 p) : ℝ) : EReal) := by
  unfold k0_pay13 k0_pay4
  simp only [shapeCast_self]
  rw [maximumf_apply, subf_apply, addf_apply, mulf_apply, broadcast_apply, broadcast_apply,
    broadcastTo_a1_ab_apply, broadcastTo_1b_ab_apply, colNorms_real r1 x1 h1, pay8_real r0 x0 h0,
    gram_real r1 r0 x1 x0 h1 h0]
  exact clamp_real _ _ _

end Cert.KernelIdeal.HandValue

end
-- ==== Proof.KI.StepValue.lean ====
/-
  One grid point's update of the running total, and the total's final scaling, over the reals.

  The second half of the kernel body takes the staged norms, Gram matrices and the X-X distance plane, forms the other two
  clamped distance planes, turns each distance d into the Gaussian weight exp(-d/2), adds up each 256 x 256 plane of
  weights (along the lanes, then along the sublanes) and adds  Sxx - 2 Sxy + Syy  to the cell.  On real inputs every
  intermediate value is the embedding of a real, the weights are `Cert.Spec.ker`, the plane totals `Cert.Spec.tsum`, and
  the amount added is `Cert.Spec.tile`.  After the last point the cell is divided by the number of pairs, 2^24.
-/
import proofs.«135174_j9603546874013_2_alg».proof.Proof.KI.Payloads

noncomputable section

namespace Cert.KernelIdeal.HandValue

open Idealize.ShloMosaic Idealize.ShloMosaic.ValueIdx
open Cert.KernelIdeal Cert.KernelIdeal.Gen Cert.KernelIdeal.Hand Cert.Spec

/-- The exponential of a vector, read at an entry. -/
theorem exp_apply {s : Shape} {φ : FTy} (a : FVec Ideal s φ) (i : s.Idx) : exp a i = Ideal.exp (a i) := rfl

/-- The Gaussian weight of a real squared distance `d`: the literal -1/2 times `d`, exponentiated, is exp(-d/2). -/
theorem weight_real (d : ℝ) :
    Ideal.exp (Ideal.ofBits .f32 0xBF000000#32 * ((d : ℝ) : EReal)) = ((Real.exp (-d / 2) : ℝ) : EReal) := by
  rw [lit_neg_half, ← EReal.coe_mul, Ideal.exp_coe]
  congr 2
  ring

/-- A clamped distance plane from a column of norms repeated along rows, a row of norms repeated along columns, and a Gram
    matrix. -/
theorem distPlane_real (nb na : Fin 256 → ℝ) (g : Fin 256 → Fin 256 → ℝ) (col row G : FVec Ideal S256x256 .f32)
    (hcol : ∀ p q, col (ix2 p q) = ((nb p : ℝ) : EReal)) (hrow : ∀ p q, row (ix2 p q) = ((na q : ℝ) : EReal))
    (hG : ∀ p q, G (ix2 p q) = ((g p q : ℝ) : EReal)) (p q : Fin 256) :
    maximumf (subf (addf col row) (mulf (broadcast S256x256 (Scalar.ofBits (F := Ideal) .f32 0x40000000#32)) G))
        (broadcast S256x256 (Scalar.ofBits (F := Ideal) .f32 0x00000000#32)) (ix2 p q)
      = ((max (nb p + na q - 2 * g p q) 0 : ℝ) : EReal) := by
  rw [maximumf_apply, subf_apply, addf_apply, mulf_apply, broadcast_apply, broadcast_apply, hcol, hrow, hG]
  exact clamp_real _ _ _

/-- The total of a plane of Gaussian weights: the lane sums of exp(-d/2), stood up as a column, summed along the sublanes. -/
theorem planeTotal_real (D : Fin 256 → Fin 256 → ℝ) (v : FVec Ideal S256x256 .f32)
    (hv : ∀ p q, v (ix2 p q) = ((D p q : ℝ) : EReal)) (j : S1x1.Idx) :
    shapeCast S1x1 (multiReduction .add [0] S1 (shapeCast S256x1 (multiReduction .add [1] S256
        (exp (mulf (broadcast S256x256 (Scalar.ofBits (F := Ideal) .f32 0xBF000000#32)) v))
        0x00000000#32 reduces_S256x256_S256 (.inl rfl) rfl) shapeCasts_S256_S256x1)
        0x00000000#32 reduces_S256x1_S1 (.inl rfl) rfl) shapeCasts_S1_S1x1 j
      = ((∑ p, ∑ q, Real.exp (-(D p q) / 2) : ℝ) : EReal) := by
  obtain ⟨a, b, rfl⟩ : ∃ (a : Fin 1) (b : Fin 1), j = ix2 a b := ⟨j 0, j 1, eq_ix2 j⟩
  rw [shapeCast_a_1a_apply, sublaneSum_apply, coe_sum]
  refine Finset.sum_congr rfl fun p _ => ?_
  rw [shapeCast_a_a1_apply, laneSum_apply, coe_sum]
  refine Finset.sum_congr rfl fun q _ => ?_
  rw [exp_apply, mulf_apply, broadcast_apply, hv]
  exact weight_real _

/-- A float literal read on the scalar side is the same extended real. -/
theorem scalar_ofBits (φ : FTy) (b : BitVec φ.bits) : Scalar.ofBits (F := Ideal) φ b = Ideal.ofBits φ b := rfl

/-- The second half of the body on real staged values: the cell `s` plus  Sxx - 2 Sxy + Syy,  where each S is the total of
    exp(-d/2) over a plane of clamped distances: the X-X plane is handed in (`D01`), the other two are formed here from the
    norms (`n0`, `n2` along rows, `n3` down columns) and the Gram matrices `g03`, `g23`. -/
theorem pay15_real (n0 n2 n3 : Fin 256 → ℝ) (g03 g23 D01 : Fin 256 → Fin 256 → ℝ) (s : ℝ)
    (v15 v17 : FVec Ideal S1x256 .f32) (v23 : FVec Ideal S256x1 .f32) (v25 v26 v34 v35 : FVec Ideal S256x256 .f32)
    (h15 : ∀ (u : Fin 1) (c : Fin 256), v15 (ix2 u c) = ((n0 c : ℝ) : EReal))
    (h17 : ∀ (u : Fin 1) (c : Fin 256), v17 (ix2 u c) = ((n2 c : ℝ) : EReal))
    (h23 : ∀ (p : Fin 256) (u : Fin 1), v23 (ix2 p u) = ((n3 p : ℝ) : EReal))
    (h25 : ∀ p q : Fin 256, v25 (ix2 p q) = ((g03 p q : ℝ) : EReal))
    (h26 : ∀ p q : Fin 256, v26 (ix2 p q) = ((g23 p q : ℝ) : EReal))
    (h34 : ∀ p q : Fin 256, v34 (ix2 p q) = ((D01 p q : ℝ) : EReal))
    (h35 : ∀ p q : Fin 256, v35 (ix2 p q) = ((n3 p : ℝ) : EReal)) :
    k0_pay15 (F := Ideal) v15 v17 v23 v25 v26 v34 v35 (fun _ => ((s : ℝ) : EReal))
      = fun _ => ((s + ((∑ p, ∑ q, Real.exp (-(D01 p q) / 2))
          - 2 * (∑ p, ∑ q, Real.exp (-(max (n3 p + n0 q - 2 * g03 p q) 0) / 2))
          + ∑ p, ∑ q, Real.exp (-(max (n3 p + n2 q - 2 * g23 p q) 0) / 2)) : ℝ) : EReal) := by
  funext j
  unfold k0_pay15
  rw [addf_apply, addf_apply, subf_apply, mulf_apply, broadcast_apply,
    planeTotal_real D01 v34 h34,
    planeTotal_real (fun p q => max (n3 p + n0 q - 2 * g03 p q) 0) _
      (distPlane_real n3 n0 g03 v35 (broadcastTo S256x256 v15 broadcasts_S1x256_S256x256) v25 h35
        (fun p q => by rw [broadcastTo_1b_ab_apply, h15]) h25),
    planeTotal_real (fun p q => max (n3 p + n2 q - 2 * g23 p q) 0) _
      (distPlane_real n3 n2 g23 (broadcastTo S256x256 v23 broadcasts_S256x1_S256x256)
        (broadcastTo S256x256 v17 broadcasts_S1x256_S256x256) v26
        (fun p q => by rw [broadcastTo_a1_ab_apply, h23]) (fun p q => by rw [broadcastTo_1b_ab_apply, h17]) h26),
    scalar_ofBits, lit_two, ← EReal.coe_mul, ← EReal.coe_sub, ← EReal.coe_add, ← EReal.coe_add]

/-- The cell is reset to zero before the first point. -/
theorem pay3_real : (k0_pay3 (F := Ideal)) = fun _ => ((0 : ℝ) : EReal) := by
  funext j
  unfold k0_pay3
  rw [shapeCast_self, broadcast_apply, scalar_ofBits, lit_zero]

/-- After the last point the total is divided by the number of pairs. -/
theorem pay2_real (s : ℝ) :
    k0_pay2 (F := Ideal) (fun _ => ((s : ℝ) : EReal)) = fun _ => ((s / 16777216 : ℝ) : EReal) := by
  funext j
  unfold k0_pay2
  rw [divf_apply, broadcast_apply, scalar_ofBits, lit_pairs, Ideal.div_coe (by norm_num), ← EReal.coe_mul, mul_one_div]

/-- One grid point: the cell `s` becomes `s` plus the tile pair's contribution. -/
theorem step_real (r0 r1 r2 r3 : Fin 256 → Fin 256 → ℝ) (s : ℝ)
    (x0 x1 x2 x3 : Vec Ideal S256x256 .f32)
    (h0 : ∀ (p q : Fin 256), x0 (ValueIdx.ix2 p q) = ((r0 p q : ℝ) : EReal))
    (h1 : ∀ (p q : Fin 256), x1 (ValueIdx.ix2 p q) = ((r1 p q : ℝ) : EReal))
    (h2 : ∀ (p q : Fin 256), x2 (ValueIdx.ix2 p q) = ((r2 p q : ℝ) : EReal))
    (h3 : ∀ (p q : Fin 256), x3 (ValueIdx.ix2 p q) = ((r3 p q : ℝ) : EReal)) :
    step (F := Ideal) x0 x1 x2 x3 (fun _ => ((s : ℝ) : EReal)) = fun _ => ((s + tile r0 r1 r2 r3 : ℝ) : EReal) := by
  unfold step k0_pay1
  rw [shapeCast_self,
    pay15_real (fun c => sqn (r0 c)) (fun c => sqn (r2 c)) (fun p => sqn (r3 p))
      (fun p q => ∑ d, r3 p d * r0 q d) (fun p q => ∑ d, r3 p d * r2 q d) (fun p q => d2 (r0 q) (r1 p)) s
      (k0_pay8 x0) (k0_pay9 x2) (k0_pay10 x3) (k0_pay11 x0 x3) (k0_pay12 x2 x3) (k0_pay13 x0 x1) (k0_pay14 x3)
      (pay8_real r0 x0 h0) (pay9_real r2 x2 h2) (pay10_real r3 x3 h3) (pay11_real r0 r3 x0 x3 h0 h3)
      (pay12_real r2 r3 x2 x3 h2 h3) (pay13_real r0 r1 x0 x1 h0 h1) (pay14_real r3 x3 h3)]
  rfl

end Cert.KernelIdeal.HandValue

end
-- ==== Proof.SpecSum.lean ====
/-
  Regrouping finite sums of reals: the 256 grid points, taken in row-major order, are exactly the 16 x 16 tile
  pairs, and the 256 x 256 pairs of each tile pair, taken over all tile pairs, are exactly the 4096 x 4096 pairs of
  rows.  Hence the running total after the last grid point, divided by the number of pairs, is the discrepancy.
-/
import proofs.«135174_j9603546874013_2_alg».proof.Proof.Spec
import Mathlib.Algebra.BigOperators.Fin
import Mathlib.Logic.Equiv.Fin.Basic
import Mathlib.Tactic.Ring
import Mathlib.Tactic.Linarith

noncomputable section

namespace Cert.Spec

open Idealize.ShloMosaic

/-- Before the first grid point nothing has been added. -/
theorem running_zero (X Y : Fin 4096 → Fin 256 → ℝ) : running X Y 0 = 0 := by
  unfold running
  simp

/-- Passing grid point `t` adds exactly that point's contribution: the points before `t + 1` are those before `t`
    together with `t` itself. -/
theorem running_succ (X Y : Fin 4096 → Fin 256 → ℝ) (t : Fin 256) :
    running X Y (t.val + 1) = running X Y t.val + tileAt X Y t := by
  unfold running
  have hset : Finset.univ.filter (fun s : Fin 256 => s.val < t.val + 1)
      = insert t (Finset.univ.filter (fun s : Fin 256 => s.val < t.val)) := by
    ext s
    simp only [Finset.mem_filter, Finset.mem_univ, true_and, Finset.mem_insert, Fin.ext_iff]
    omega
  rw [hset, Finset.sum_insert (by simp)]
  ring

/-- A sum over `a * b` consecutive indices, cut into `a` blocks of `b`: index `b * i + r` is position `r` of
    block `i`. -/
theorem sum_blocks (a b N : ℕ) (h : a * b = N) (g : Fin N → ℝ) :
    ∑ m : Fin N, g m
      = ∑ i : Fin a, ∑ r : Fin b, g ⟨b * i.val + r.val, by
          have hi := i.isLt
          have hr := r.isLt
          calc b * i.val + r.val < b * i.val + b := by omega
            _ = b * (i.val + 1) := by ring
            _ ≤ b * a := Nat.mul_le_mul_left _ hi
            _ = N := by rw [Nat.mul_comm]; exact h⟩ := by
  subst h
  rw [← finProdFinEquiv.sum_comp, Fintype.sum_prod_type]
  refine Finset.sum_congr rfl fun i _ => Finset.sum_congr rfl fun r _ => ?_
  congr 1
  ext
  simp only [finProdFinEquiv_apply_val]
  ring

/-- The tile sums over all 16 x 16 tile pairs make up the sum over all pairs of rows.  In both, the outer index
    runs over rows of `B`; the grid's first coordinate picks the block of `A`, so the two block indices are
    exchanged on the way. -/
theorem tsum_total (A B : Fin 4096 → Fin 256 → ℝ) :
    ∑ i : Fin 16, ∑ j : Fin 16, tsum (rowsOf A i) (rowsOf B j) = ksum A B := by
  unfold ksum
  rw [sum_blocks 16 256 4096 (by norm_num) (fun m => ∑ n : Fin 4096, ker (A n) (B m))]
  rw [Finset.sum_comm]
  refine Finset.sum_congr rfl fun j _ => ?_
  unfold tsum
  rw [Finset.sum_comm]
  refine Finset.sum_congr rfl fun r _ => ?_
  rw [sum_blocks 16 256 4096 (by norm_num) (fun n => ker (A n) (B _))]
  rfl

/-- Row-major order on the grid: point `16 * i + j` is the tile pair `(i, j)`. -/
theorem ti_mk (i j : Fin 16) (h : 16 * i.val + j.val < 256) : ti ⟨16 * i.val + j.val, h⟩ = i := by
  apply Fin.ext
  have := j.isLt
  simp only [ti]
  omega

theorem tj_mk (i j : Fin 16) (h : 16 * i.val + j.val < 256) : tj ⟨16 * i.val + j.val, h⟩ = j := by
  apply Fin.ext
  have := j.isLt
  simp only [tj]
  omega

/-- After all 256 grid points the running total, divided by the number of pairs, is the discrepancy. -/
theorem total_eq (X Y : Fin 4096 → Fin 256 → ℝ) : running X Y 256 / 16777216 = mmd X Y := by
  have hall : running X Y 256 = ∑ t : Fin 256, tileAt X Y t := by
    unfold running
    rw [Finset.filter_true_of_mem (fun t _ => t.isLt)]
  have hgrid : ∑ t : Fin 256, tileAt X Y t
      = ∑ i : Fin 16, ∑ j : Fin 16,
          tile (rowsOf X i) (rowsOf X j) (rowsOf Y i) (rowsOf Y j) := by
    rw [sum_blocks 16 16 256 (by norm_num) (fun t => tileAt X Y t)]
    refine Finset.sum_congr rfl fun i _ => Finset.sum_congr rfl fun j _ => ?_
    simp only [tileAt, ti_mk, tj_mk]
  have hlin : ∑ i : Fin 16, ∑ j : Fin 16,
        tile (rowsOf X i) (rowsOf X j) (rowsOf Y i) (rowsOf Y j)
      = ksum X X - 2 * ksum X Y + ksum Y Y := by
    simp only [tile, Finset.sum_add_distrib, Finset.sum_sub_distrib, ← Finset.mul_sum]
    rw [tsum_total, tsum_total, tsum_total]
  rw [hall, hgrid, hlin]
  unfold mmd
  ring

end Cert.Spec

end
-- ==== Proof.Finite.lean ====
/-
  From the printed precondition to the mathematics: the precondition says |x| < +inf of every entry of both inputs,
  so under it every entry is a real; and flattening an array only moves entries, so a flattened input's entries are
  reals too, and reading one as a real and embedding it back changes nothing.
-/
import proofs.«135174_j9603546874013_2_alg».proof.Defs
import proofs.«135174_j9603546874013_2_alg».proof.Proof.Gen.Pre_finite_inputs
import proofs.«135174_j9603546874013_2_alg».proof.Proof.Spec
import Idealize.ShloMosaic.Lib.ReduceAll

noncomputable section

namespace Cert.Hand

open Idealize.ShloMosaic

/-- The shape of a single number has exactly one index. -/
instance subsingleton_scalar_idx : Subsingleton Cert.Pre_finite_inputs.S_.Idx :=
  ⟨fun a b => funext fun d => d.elim0⟩

/-- A one-bit word made from a truth value is 1 exactly when the value is true. -/
theorem ofBool_eq_one_iff (b : Bool) : BitVec.ofBool b = 1#1 ↔ b = true := by cases b <;> decide

/-- The pattern 0x7F800000 denotes +inf. -/
theorem inf_pattern : Ideal.ofBits .f32 0x7F800000#32 = (⊤ : EReal) := by
  simp [Ideal.ofBits, Ideal.ieee]

/-- An extended real whose absolute value max(x, -x) lies strictly below +inf is a real: of the two infinities, one
    has itself and the other its negation equal to +inf. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One entry of the comparison array of the precondition: it is 1 only where the input's entry is a real. -/
theorem real_of_cmp (a : Cert.Spec.SArg.Idx → EReal) (hb) (i : Cert.Spec.SArg.Idx)
    (h : (cmpf (F := Ideal) CmpFPredicate.olt (Host.absf a)
            (broadcastInDim Cert.Pre_finite_inputs.S4096x16x16 ![] hb
              (constant Cert.Pre_finite_inputs.S_ FTy.f32 0x7F800000#32))) i = 1#1) :
    ∃ r : ℝ, a i = (r : EReal) := by
  apply real_of_abs_lt_top
  have h' : Ideal.cmp CmpFPredicate.olt (max (a i) (-(a i))) (Ideal.ofBits .f32 0x7F800000#32) = 1#1 := h
  rw [inf_pattern] at h'
  unfold Ideal.cmp at h'
  rw [ofBool_eq_one_iff, decide_eq_true_eq] at h'
  exact h'

/-- Under the precondition every entry of both inputs is a real. -/
theorem finite_of_pre [Cert.Pre_finite_inputs.Facts] (a0 a1 : (Cert.Spec.SArg).Idx → EReal)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨hX, hY⟩ := IntOp.andi_eq_one.1 h0
  exact ⟨fun i => real_of_cmp a0 _ i (Host.reduce_andi_all _ _ _ _ _ hX i),
         fun i => real_of_cmp a1 _ i (Host.reduce_andi_all _ _ _ _ _ hY i)⟩

/-- An entry of the flattened input is an entry of the input, hence a real; reading it as a real loses nothing. -/
theorem flat_coe (a : Cert.Spec.SArg.Idx → EReal) (hfin : ∀ i, ∃ r : ℝ, a i = (r : EReal))
    (hc : Cert.Spec.SArg.ShapeCasts Cert.Spec.SFlat) (n : Fin 4096) (d : Fin 256) :
    shapeCast Cert.Spec.SFlat a hc (ValueIdx.ix2 n d)
      = ((Cert.Spec.flat (shapeCast Cert.Spec.SFlat a hc) n d : ℝ) : EReal) := by
  obtain ⟨r, hr⟩ : ∃ r : ℝ, shapeCast Cert.Spec.SFlat a hc (ValueIdx.ix2 n d) = (r : EReal) := by
    unfold shapeCast
    exact hfin _
  unfold Cert.Spec.flat
  rw [hr, EReal.toReal_coe]

end Cert.Hand

end
-- ==== Proof.KI.AccValue.lean ====
/-
  The kernel's accumulator over the reals.

  The region finds each 4096 x 16 x 16 input flattened to 4096 rows of 256 entries.  At grid point t = 16 i + j the four
  input windows hand the body rows 256 i .. 256 i + 255 and rows 256 j .. 256 j + 255 of the flattened first input, and
  the same two row ranges of the second: a block's element (p, q) sits in the array at row (block index) * 256 + p and
  column q, and the block indices of the four windows at point t are t / 16, t % 16, t / 16, t % 16.

  When every entry of the inputs is a real number, so is every entry of those blocks, and one point's update of the scratch
  cell adds that point's tile contribution to the real it holds.  By induction over the grid points the cell holds, before
  point n, the running total of the contributions of the points before n; after the last point the total is divided by
  the number of pairs, and regrouping the tiles into the whole plane makes that the discrepancy of the two flattened
  inputs.
-/
import proofs.«135174_j9603546874013_2_alg».proof.Proof.KI.Step
import proofs.«135174_j9603546874013_2_alg».proof.Proof.KI.StepValue
import proofs.«135174_j9603546874013_2_alg».proof.Proof.SpecSum
import proofs.«135174_j9603546874013_2_alg».proof.Proof.Finite
import Idealize.ShloMosaic.Lib.Pipeline.Value
import Idealize.ShloMosaic.Lib.StableHlo.Run

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand Cert.Spec

variable (m : (ℓ : Loc nD τ sig) → Buf (Elt Ideal) ℓ)

/-- The first window array as the region finds it: the first input, flattened. -/
theorem V1_main_v0 (c : Dev nD) :
    (V1 (F := Ideal) m c main_v0 : S4096x256.Idx → EReal)
      = shapeCast S4096x256 (m ((c : Thread nD τ).loc main_arg0)) shapeCasts_S4096x16x16_S4096x256 := by
  dsimp only [V1, W1, Gen.hostOps0]; after_results; rfl

/-- The second window array as the region finds it: the second input, flattened. -/
theorem V1_main_v1 (c : Dev nD) :
    (V1 (F := Ideal) m c main_v1 : S4096x256.Idx → EReal)
      = shapeCast S4096x256 (m ((c : Thread nD τ).loc main_arg1)) shapeCasts_S4096x16x16_S4096x256 := by
  dsimp only [V1, W1, Gen.hostOps0]; after_results; rfl

/-! ## The four input blocks at a grid point, as rows of the two flattened inputs

The block indices of the four input windows at a point, decided once over the 256 points. -/

theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)

theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx3 : ∀ t : Fin cfg0.N, win0_3.index t (0 : Fin 2) = t.val % 16 ∧ win0_3.index t (1 : Fin 2) = 0 :=
  (by decide +kernel : ∀ t : Fin grid0.N, win0_3.index t (0 : Fin 2) = t.val % 16 ∧ win0_3.index t (1 : Fin 2) = 0)

/-- A grid point is below 256. -/
theorem t_lt (t : Fin cfg0.N) : t.val < 256 := lt_of_lt_of_eq t.isLt N_0

/-- Window 0's block at point `t`: rows 256 (t / 16) .. of the flattened first input. -/
theorem iblk0_apply (c : Dev nD) (t : Fin cfg0.N) (p q : Fin 256) :
    (iblk (F := Ideal) m c 0 t : S256x256.Idx → EReal) (ix2 p q)
      = (V1 (F := Ideal) m c main_v0 : S4096x256.Idx → EReal)
          (ix2 ⟨256 * (t.val / 16) + p.val, by have := t_lt t; have := p.isLt; omega⟩ q) := by
  unfold iblk
  rw [View.read_apply]
  show V1 m c main_v0 (((cfg0.win 0).blk t).view.emb (ix2 p q)) = V1 m c main_v0 _
  refine congrArg _ (funext fun a => Fin.ext ?_)
  match a with
  | ⟨0, _⟩ => show win0_0.index t 0 * 256 + 1 * p.val = 256 * (t.val / 16) + p.val; rw [(idx0 t).1]; omega
  | ⟨1, _⟩ => show win0_0.index t 1 * 256 + 1 * q.val = q.val; rw [(idx0 t).2]; omega

/-- Window 1's block at point `t`: rows 256 (t % 16) .. of the flattened first input. -/
theorem iblk1_apply (c : Dev nD) (t : Fin cfg0.N) (p q : Fin 256) :
    (iblk (F := Ideal) m c 1 t : S256x256.Idx → EReal) (ix2 p q)
      = (V1 (F := Ideal) m c main_v0 : S4096x256.Idx → EReal)
          (ix2 ⟨256 * (t.val % 16) + p.val, by have := p.isLt; omega⟩ q) := by
  unfold iblk
  rw [View.read_apply]
  show V1 m c main_v0 (((cfg0.win 1).blk t).view.emb (ix2 p q)) = V1 m c main_v0 _
  refine congrArg _ (funext fun a => Fin.ext ?_)
  match a with
  | ⟨0, _⟩ => show win0_1.index t 0 * 256 + 1 * p.val = 256 * (t.val % 16) + p.val; rw [(idx1 t).1]; omega
  | ⟨1, _⟩ => show win0_1.index t 1 * 256 + 1 * q.val = q.val; rw [(idx1 t).2]; omega

/-- Window 2's block at point `t`: rows 256 (t / 16) .. of the flattened second input. -/
theorem iblk2_apply (c : Dev nD) (t : Fin cfg0.N) (p q : Fin 256) :
    (iblk (F := Ideal) m c 2 t : S256x256.Idx → EReal) (ix2 p q)
      = (V1 (F := Ideal) m c main_v1 : S4096x256.Idx → EReal)
          (ix2 ⟨256 * (t.val / 16) + p.val, by have := t_lt t; have := p.isLt; omega⟩ q) := by
  unfold iblk
  rw [View.read_apply]
  show V1 m c main_v1 (((cfg0.win 2).blk t).view.emb (ix2 p q)) = V1 m c main_v1 _
  refine congrArg _ (funext fun a => Fin.ext ?_)
  match a with
  | ⟨0, _⟩ => show win0_2.index t 0 * 256 + 1 * p.val = 256 * (t.val / 16) + p.val; rw [(idx2 t).1]; omega
  | ⟨1, _⟩ => show win0_2.index t 1 * 256 + 1 * q.val = q.val; rw [(idx2 t).2]; omega

/-- Window 3's block at point `t`: rows 256 (t % 16) .. of the flattened second input. -/
theorem iblk3_apply (c : Dev nD) (t : Fin cfg0.N) (p q : Fin 256) :
    (iblk (F := Ideal) m c 3 t : S256x256.Idx → EReal) (ix2 p q)
      = (V1 (F := Ideal) m c main_v1 : S4096x256.Idx → EReal)
          (ix2 ⟨256 * (t.val % 16) + p.val, by have := p.isLt; omega⟩ q) := by
  unfold iblk
  rw [View.read_apply]
  show V1 m c main_v1 (((cfg0.win 3).blk t).view.emb (ix2 p q)) = V1 m c main_v1 _
  refine congrArg _ (funext fun a => Fin.ext ?_)
  match a with
  | ⟨0, _⟩ => show win0_3.index t 0 * 256 + 1 * p.val = 256 * (t.val % 16) + p.val; rw [(idx3 t).1]; omega
  | ⟨1, _⟩ => show win0_3.index t 1 * 256 + 1 * q.val = q.val; rw [(idx3 t).2]; omega

/-! ## Every entry of the two flattened inputs is a real -/

section Real
variable (c : Dev nD)
  (hX : ∀ i, ∃ r : ℝ, m ((c : Thread nD τ).loc main_arg0) i = (r : EReal))
  (hY : ∀ i, ∃ r : ℝ, m ((c : Thread nD τ).loc main_arg1) i = (r : EReal))

include hX in
/-- An entry of the flattened first input is the coercion of the real it is read as. -/
theorem entryX (n : Fin 4096) (d : Fin 256) :
    (V1 (F := Ideal) m c main_v0 : S4096x256.Idx → EReal) (ix2 n d)
      = ((flat (V1 (F := Ideal) m c main_v0) n d : ℝ) : EReal) := by
  rw [V1_main_v0]
  exact Cert.Hand.flat_coe _ hX _ n d

include hY in
/-- An entry of the flattened second input likewise. -/
theorem entryY (n : Fin 4096) (d : Fin 256) :
    (V1 (F := Ideal) m c main_v1 : S4096x256.Idx → EReal) (ix2 n d)
      = ((flat (V1 (F := Ideal) m c main_v1) n d : ℝ) : EReal) := by
  rw [V1_main_v1]
  exact Cert.Hand.flat_coe _ hY _ n d

end Real

/-! ## The scratch cell before each grid point, and the value written out -/

section Acc
variable (c : Dev nD)
  (hX : ∀ i, ∃ r : ℝ, m ((c : Thread nD τ).loc main_arg0) i = (r : EReal))
  (hY : ∀ i, ∃ r : ℝ, m ((c : Thread nD τ).loc main_arg1) i = (r : EReal))

include hX hY in
/-- Before grid point `n` the scratch cell holds the running total of the tile contributions of the points before it. -/
theorem accAt_real (n : ℕ) (hn : n ≤ 256) :
    accAt (F := Ideal) m c n
      = fun _ => ((running (flat (V1 (F := Ideal) m c main_v0)) (flat (V1 (F := Ideal) m c main_v1)) n : ℝ) : EReal) := by
  induction n with
  | zero => rw [accAt_zero, pay3_real, running_zero]
  | succ n ih =>
    have h256 : n < 256 := Nat.lt_of_succ_le hn
    have hn' : n < cfg0.N := lt_of_lt_of_eq h256 N_0.symm
    have h0 : ∀ p q : Fin 256, (iblk (F := Ideal) m c 0 ⟨n, hn'⟩ : S256x256.Idx → EReal) (ix2 p q)
        = ((rowsOf (flat (V1 (F := Ideal) m c main_v0)) (ti ⟨n, h256⟩) p q : ℝ) : EReal) :=
      fun p q => (iblk0_apply m c ⟨n, hn'⟩ p q).trans (entryX m c hX _ q)
    have h1 : ∀ p q : Fin 256, (iblk (F := Ideal) m c 1 ⟨n, hn'⟩ : S256x256.Idx → EReal) (ix2 p q)
        = ((rowsOf (flat (V1 (F := Ideal) m c main_v0)) (tj ⟨n, h256⟩) p q : ℝ) : EReal) :=
      fun p q => (iblk1_apply m c ⟨n, hn'⟩ p q).trans (entryX m c hX _ q)
    have h2 : ∀ p q : Fin 256, (iblk (F := Ideal) m c 2 ⟨n, hn'⟩ : S256x256.Idx → EReal) (ix2 p q)
        = ((rowsOf (flat (V1 (F := Ideal) m c main_v1)) (ti ⟨n, h256⟩) p q : ℝ) : EReal) :=
      fun p q => (iblk2_apply m c ⟨n, hn'⟩ p q).trans (entryY m c hY _ q)
    have h3 : ∀ p q : Fin 256, (iblk (F := Ideal) m c 3 ⟨n, hn'⟩ : S256x256.Idx → EReal) (ix2 p q)
        = ((rowsOf (flat (V1 (F := Ideal) m c main_v1)) (tj ⟨n, h256⟩) p q : ℝ) : EReal) :=
      fun p q => (iblk3_apply m c ⟨n, hn'⟩ p q).trans (entryY m c hY _ q)
    refine (accAt_succ m c ⟨n, hn'⟩).trans ?_
    show step _ _ _ _ (accAt m c n) = _
    rw [ih (Nat.le_of_succ_le hn), show n + 1 = ((⟨n, h256⟩ : Fin 256)).val + 1 from rfl, running_succ]
    exact step_real _ _ _ _ _ _ _ _ _ h0 h1 h2 h3

include hX hY in
/-- What the kernel writes out: the discrepancy of the two flattened inputs. -/
theorem result_real :
    result (F := Ideal) m c
      = fun _ => ((mmd (flat (shapeCast S4096x256 (m ((c : Thread nD τ).loc main_arg0)) shapeCasts_S4096x16x16_S4096x256))
          (flat (shapeCast S4096x256 (m ((c : Thread nD τ).loc main_arg1)) shapeCasts_S4096x16x16_S4096x256)) : ℝ) : EReal) := by
  unfold result
  rw [accAt_real m c hX hY 256 (Nat.le_refl _), pay2_real, total_eq, V1_main_v0, V1_main_v1]

end Acc

end Cert.KernelIdeal.HandValue

end
-- ==== Proof.Ref.RefValue.lean ====
/-
  The reference's value over the reals.

  The reference flattens each 4096 x 16 x 16 input to 4096 rows of 256 entries and computes, three times over (X against
  X, X against Y, Y against Y), the same chain on a pair (A, B) of flattened inputs: the squared norms a2, b2 of the rows
  of A and of B; the plane  max(b2[m] + a2[n] - 2 <B_m, A_n>, 0), which is the squared distance of row n of A and row m
  of B in its expanded and clamped form; the exponential of minus half of it, the Gaussian kernel of the two rows; the
  sum of that over the whole plane, from zero; and the quotient by 16777216 = 4096^2, the number of pairs. It then
  combines the three means as  (XX - 2 XY) + YY.

  When every entry of the inputs is a real number every intermediate value is a real number too, and each operation on
  the extended reals is the operation on the reals under the coercion: sums, products, differences, maxima, negation,
  the quotient by a nonzero real, and the exponential of a real. Pushing the coercion outwards stage by stage gives the
  squared norms (`sqn`), the clamped squared distance (`d2`), the kernel (`ker`), its double sum (`ksum`) and the mean,
  and the combination of the three means is `mmd` of the two flattened inputs.

  The X-against-Y chain is read stage by stage for two arbitrary inputs; the two other chains are the same
  operations in the same order read at equal arguments, so they need no reading of their own.
-/
import proofs.«135174_j9603546874013_2_alg».proof.Proof.Gen.ReferenceIdeal.Read
import proofs.«135174_j9603546874013_2_alg».proof.Proof.Spec

noncomputable section

namespace Cert.ReferenceIdeal.HandValue

open Cert.ReferenceIdeal Cert.ReferenceIdeal.Gen Cert.ReferenceIdeal.Read Idealize.ShloMosaic Idealize.ShloMosaic.ValueIdx Cert.Spec

/-! ## The three float literals of the reference, as reals -/

theorem lit_zero : Ideal.ofBits .f32 0x00000000#32 = ((0 : ℝ) : EReal) := by
  simp [Ideal.ofBits, Ideal.ieee]
theorem lit_two : Ideal.ofBits .f32 0x40000000#32 = ((2 : ℝ) : EReal) := by
  simp [Ideal.ofBits, Ideal.ieee, -EReal.coe_mul]; norm_num
theorem lit_pairs : Ideal.ofBits .f32 0x4B800000#32 = ((16777216 : ℝ) : EReal) := by
  simp [Ideal.ofBits, Ideal.ieee, -EReal.coe_mul]; norm_num

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the maximum. -/
theorem coe_max (a b : ℝ) : ((max a b : ℝ) : EReal) = max (a : EReal) (b : EReal) :=
  EReal.coe_strictMono.monotone.map_max

/-- An extended real that is a real is the coercion of its real part. -/
theorem eq_coe_toReal {a : EReal} (h : ∃ r : ℝ, a = (r : EReal)) : a = ((a.toReal : ℝ) : EReal) := by
  obtain ⟨r, rfl⟩ := h
  rw [EReal.toReal_coe]

/-- A flattened input read as reals. -/
abbrev fl (x : S4096x16x16.Idx → EReal) : Fin 4096 → Fin 256 → ℝ :=
  flat (shapeCast S4096x256 x shapeCasts_S4096x16x16_S4096x256)

/-! ## The middle block of the reference (the X-against-Y term), stage by stage

Its two flattened operands are `val_main_v23 x0` (rows indexed by `n` below) and `val_main_v24 x1` (rows indexed by
`m`); every entry of both is a real. -/

section Block
variable (x0 x1 : S4096x16x16.Idx → EReal)
  (hX : ∀ i, ∃ r : ℝ, x0 i = (r : EReal)) (hY : ∀ i, ∃ r : ℝ, x1 i = (r : EReal))

include hX in
/-- An entry of the first flattened operand is the coercion of the real it is read as. -/
theorem entryA (n : Fin 4096) (d : Fin 256) :
    val_main_v23 (F := Ideal) x0 (ix2 n d) = ((fl x0 n d : ℝ) : EReal) :=
  eq_coe_toReal (by rw [val_main_v23_apply]; exact hX _)

include hY in
/-- An entry of the second flattened operand likewise. -/
theorem entryB (m : Fin 4096) (d : Fin 256) :
    val_main_v24 (F := Ideal) x1 (ix2 m d) = ((fl x1 m d : ℝ) : EReal) :=
  eq_coe_toReal (by rw [val_main_v24_apply]; exact hY _)

include hX in
/-- The row sums of the squares of the first operand: the squared norms of its rows. -/
theorem rowA (n : Fin 4096) : val_main_v26 (F := Ideal) x0 (ix1 n) = ((sqn (fl x0 n) : ℝ) : EReal) := by
  have e : ∀ k : Fin 256, idx_main_v26 (ix1 n) k = ix2 n k := fun k =>
    funext fun a => by match a with | ⟨0, _⟩ => rfl | ⟨1, _⟩ => rfl
  rw [val_main_v26_apply, val_main_cst_6_apply, Ideal.ofBits_def, lit_zero]
  simp only [e, val_main_v25_apply, entryA x0 hX, Ideal.mulf_def, ← EReal.coe_mul]
  rw [← coe_sum, ← EReal.coe_add, zero_add]
  rfl

include hY in
/-- The row sums of the squares of the second operand. -/
theorem rowB (m : Fin 4096) : val_main_v28 (F := Ideal) x1 (ix1 m) = ((sqn (fl x1 m) : ℝ) : EReal) := by
  have e : ∀ k : Fin 256, idx_main_v28 (ix1 m) k = ix2 m k := fun k =>
    funext fun a => by match a with | ⟨0, _⟩ => rfl | ⟨1, _⟩ => rfl
  rw [val_main_v28_apply, val_main_cst_7_apply, Ideal.ofBits_def, lit_zero]
  simp only [e, val_main_v27_apply, entryB x1 hY, Ideal.mulf_def, ← EReal.coe_mul]
  rw [← coe_sum, ← EReal.coe_add, zero_add]
  rfl

end Block

section Block2
variable (x0 x1 : S4096x16x16.Idx → EReal)
  (hX : ∀ i, ∃ r : ℝ, x0 i = (r : EReal)) (hY : ∀ i, ∃ r : ℝ, x1 i = (r : EReal))

include hX hY in
/-- The clamped plane at (m, n): the squared distance between row n of the first operand and row m of the second. -/
theorem planeAt (m n : Fin 4096) :
    val_main_v39 (F := Ideal) x0 x1 (ix2 m n) = ((d2 (fl x0 n) (fl x1 m) : ℝ) : EReal) := by
  have e1 : idx_main_v29 (idx_main_v31 (ix2 m n)) = ix1 m :=
    funext fun a => by match a with | ⟨0, _⟩ => rfl
  have e2 : idx_main_v30 (idx_main_v32 (ix2 m n)) = ix1 n :=
    funext fun a => by match a with | ⟨0, _⟩ => rfl
  have el : ∀ k : Fin 256, lidx_main_v34 (ix2 m n) k = ix2 m k := fun k =>
    funext fun a => by match a with | ⟨0, _⟩ => rfl | ⟨1, _⟩ => rfl
  have er : ∀ k : Fin 256, ridx_main_v34 (ix2 m n) k = ix2 n k := fun k =>
    funext fun a => by match a with | ⟨0, _⟩ => rfl | ⟨1, _⟩ => rfl
  rw [val_main_v39_apply, val_main_v37_apply, val_main_v33_apply, val_main_v31_apply, val_main_v29_apply,
    val_main_v32_apply, val_main_v30_apply, val_main_v36_apply, val_main_v35_apply, val_main_cst_8_apply,
    val_main_v34_apply, val_main_v38_apply, val_main_cst_9_apply, e1, e2, rowA x0 hX, rowB x1 hY]
  simp only [el, er, entryA x0 hX, entryB x1 hY, Ideal.ofBits_def, lit_zero, lit_two, Ideal.mulf_def, Ideal.addf_def,
    Ideal.subf_def, Ideal.maximumf_def, ← EReal.coe_mul]
  rw [← coe_sum, ← EReal.coe_mul, ← EReal.coe_add, ← EReal.coe_sub, ← coe_max]
  rfl

end Block2

section Block3
variable (x0 x1 : S4096x16x16.Idx → EReal)
  (hX : ∀ i, ∃ r : ℝ, x0 i = (r : EReal)) (hY : ∀ i, ∃ r : ℝ, x1 i = (r : EReal))

include hX hY in
/-- The exponential stage at (m, n): the Gaussian kernel of the two rows. -/
theorem expAt (m n : Fin 4096) :
    val_main_v43 (F := Ideal) x0 x1 (ix2 m n) = ((ker (fl x0 n) (fl x1 m) : ℝ) : EReal) := by
  rw [val_main_v43_apply, val_main_v42_apply, val_main_v40_apply, val_main_v41_apply, val_main_cst_10_apply,
    planeAt x0 x1 hX hY, Ideal.ofBits_def, lit_two, Ideal.hostNegf_def, Ideal.negf_def, Ideal.hostDivf_def,
    Ideal.hostUnary_exp_def, Ideal.div_coe (by norm_num), ← EReal.coe_neg, ← EReal.coe_mul, Ideal.exp_coe,
    mul_one_div]
  rfl

include hX hY in
/-- The sum over the whole plane, from zero: the kernel summed over all pairs of rows. -/
theorem sumAll (i : S_.Idx) :
    val_main_v44 (F := Ideal) x0 x1 i = ((ksum (fl x0) (fl x1) : ℝ) : EReal) := by
  rw [val_main_v44_apply, val_main_cst_11_apply, Ideal.ofBits_def, lit_zero, sum_idx2]
  simp only [expAt x0 x1 hX hY, ← coe_sum]
  rw [← EReal.coe_add, zero_add]
  rfl

include hX hY in
/-- The block's value: the mean of the kernel over the 2^24 pairs. -/
theorem blockXY (i : S_.Idx) :
    val_main_v45 (F := Ideal) x0 x1 i = ((ksum (fl x0) (fl x1) / 16777216 : ℝ) : EReal) := by
  rw [val_main_v45_apply, sumAll x0 x1 hX hY, val_main_cst_12_apply, Ideal.ofBits_def, lit_pairs, Ideal.hostDivf_def,
    Ideal.div_coe (by norm_num), ← EReal.coe_mul, mul_one_div]

end Block3

/-! ## The first and the last block are the middle block at equal arguments

The X-against-X term and the Y-against-Y term are the same operations, in the same order, as the X-against-Y term, read
at (x, x): the stages agree one by one, by their definitions. -/

theorem blockXX_eq (x0 : S4096x16x16.Idx → EReal) :
    val_main_v22 (F := Ideal) x0 = val_main_v45 (F := Ideal) x0 x0 := rfl

theorem blockYY_eq (x1 : S4096x16x16.Idx → EReal) :
    val_main_v68 (F := Ideal) x1 = val_main_v45 (F := Ideal) x1 x1 := rfl

/-! ## The reference's value -/

/-- On inputs whose entries are real numbers the reference ends at the discrepancy of the two flattened samples. -/
theorem ref_real (a0 a1 : S4096x16x16.Idx → EReal) (hX : ∀ i, ∃ r : ℝ, a0 i = (r : EReal))
    (hY : ∀ i, ∃ r : ℝ, a1 i = (r : EReal)) :
    val_main_v71 (F := Ideal) a0 a1
      = fun _ => ((mmd (flat (shapeCast S4096x256 a0 shapeCasts_S4096x16x16_S4096x256))
          (flat (shapeCast S4096x256 a1 shapeCasts_S4096x16x16_S4096x256)) : ℝ) : EReal) := by
  funext i
  rw [val_main_v71_apply, val_main_v70_apply, val_main_v69_apply, val_main_cst_20_apply, blockXX_eq, blockYY_eq,
    blockXY a0 a0 hX hX, blockXY a0 a1 hX hY, blockXY a1 a1 hY hY, Ideal.ofBits_def, lit_two, Ideal.mulf_def,
    Ideal.subf_def, Ideal.addf_def, ← EReal.coe_mul, ← EReal.coe_sub, ← EReal.coe_add]
  rfl

open Idealize.ShloMosaic.TcCoe Idealize.SL.Sem Idealize.ShloMosaic.StableHlo in
/-- The same, for the term the reference's run ends at: the composed operations read off the two argument buffers of
    the launch memory. -/
theorem ref_real_run (m : (ℓ : Loc nD τ sig) → Buf (Elt Ideal) ℓ) (c : Dev nD)
    (hX : ∀ i, ∃ r : ℝ, m ((c.tc : Thread nD τ).loc main_arg0) i = (r : EReal))
    (hY : ∀ i, ∃ r : ℝ, m ((c.tc : Thread nD τ).loc main_arg1) i = (r : EReal)) :
    Cert.ReferenceIdeal.Value.res_main_v71 m c
      = fun _ => ((mmd (flat (shapeCast S4096x256 (m ((c.tc : Thread nD τ).loc main_arg0)) shapeCasts_S4096x16x16_S4096x256))
          (flat (shapeCast S4096x256 (m ((c.tc : Thread nD τ).loc main_arg1)) shapeCasts_S4096x16x16_S4096x256)) : ℝ) : EReal) :=
  (val_main_v71_eq m c).trans (ref_real _ _ hX hY)

end Cert.ReferenceIdeal.HandValue

end
-- ==== Proof.Assembly.lean ====
/-
  The two programs against each other at the ideal instance.  Under the precondition every input entry is a real.
  Then the kernel's run ends with its result array holding the discrepancy of the two flattened inputs, and so does
  the reference's: one extended real, the same on both sides, at the one index a rank-0 array has.  What each run
  ends holding, as a term of its program, is established elsewhere and taken here as a hypothesis; this module only
  joins the three facts behind the precondition and the agreement of the two memories on the arguments.
-/
import proofs.«135174_j9603546874013_2_alg».proof.Defs
import proofs.«135174_j9603546874013_2_alg».proof.Proof.Gen.ReferenceIdeal.Read
import proofs.«135174_j9603546874013_2_alg».proof.Proof.Finite
import proofs.«135174_j9603546874013_2_alg».proof.Proof.KI.Step
import proofs.«135174_j9603546874013_2_alg».proof.Proof.Spec

noncomputable section

namespace Cert.Proof.Assembly

open Idealize.ShloMosaic Idealize.ShloMosaic.TcCoe Idealize.SL.Sem

variable [Cert.KernelIdeal.Facts] [Cert.ReferenceIdeal.Facts] [Cert.Pre_finite_inputs.Facts]

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end holding the discrepancy of the flattened inputs, given what each run ends holding (`hrun`:
    the kernel's result cell, reshaped to rank 0), that this cell is the discrepancy when the inputs are real
    (`hres`), and that the reference's term is the discrepancy when the inputs are real (`href`). -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
       θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
         r.2.mem ((c.tc : Thread _ Cert.KernelIdeal.τ).loc Cert.KernelIdeal.main_v3) = shapeCast Cert.KernelIdeal.S_ (Cert.KernelIdeal.Hand.result (F := Ideal) m c) Cert.KernelIdeal.Facts₀.shapeCasts_S1x1_S_
         ∧ r.2.mem ((c.tc : Thread _ _).loc Cert.KernelIdeal.main_arg0) = m ((c.tc : Thread _ _).loc Cert.KernelIdeal.main_arg0)
         ∧ r.2.mem ((c.tc : Thread _ _).loc Cert.KernelIdeal.main_arg1) = m ((c.tc : Thread _ _).loc Cert.KernelIdeal.main_arg1)))
    (hres : ∀ (m : (ℓ : Loc Cert.KernelIdeal.nD Cert.KernelIdeal.τ Cert.KernelIdeal.sig) → Buf (Elt Ideal) ℓ) (c : Dev Cert.KernelIdeal.nD),
       (∀ i, ∃ r : ℝ, m ((c.tc : Thread _ _).loc Cert.KernelIdeal.main_arg0) i = (r : EReal)) → (∀ i, ∃ r : ℝ, m ((c.tc : Thread _ _).loc Cert.KernelIdeal.main_arg1) i = (r : EReal)) →
       Cert.KernelIdeal.Hand.result (F := Ideal) m c = fun _ => ((Cert.Spec.mmd (Cert.Spec.flat (shapeCast Cert.KernelIdeal.S4096x256 (m ((c.tc : Thread _ _).loc Cert.KernelIdeal.main_arg0)) Cert.KernelIdeal.Facts₀.shapeCasts_S4096x16x16_S4096x256)) (Cert.Spec.flat (shapeCast Cert.KernelIdeal.S4096x256 (m ((c.tc : Thread _ _).loc Cert.KernelIdeal.main_arg1)) Cert.KernelIdeal.Facts₀.shapeCasts_S4096x16x16_S4096x256)) : ℝ) : EReal))
    (href : ∀ (a0 a1 : Cert.ReferenceIdeal.S4096x16x16.Idx → EReal), (∀ i, ∃ r : ℝ, a0 i = (r : EReal)) → (∀ i, ∃ r : ℝ, a1 i = (r : EReal)) →
       Cert.ReferenceIdeal.Read.val_main_v71 (F := Ideal) a0 a1 = fun _ => ((Cert.Spec.mmd (Cert.Spec.flat (shapeCast Cert.ReferenceIdeal.S4096x256 a0 Cert.ReferenceIdeal.Facts₀.shapeCasts_S4096x16x16_S4096x256)) (Cert.Spec.flat (shapeCast Cert.ReferenceIdeal.S4096x256 a1 Cert.ReferenceIdeal.Facts₀.shapeCasts_S4096x16x16_S4096x256)) : ℝ) : EReal)) :
    Cert.algebraic_KernelIdeal_ReferenceIdeal := by
  intro m ρ m' ρ' hpre hagree
  -- under the precondition both inputs are real, on every core
  have hfin := fun c => Cert.Hand.finite_of_pre _ _ (hpre c)
  -- the common result: the kernel's cell, reshaped to rank 0
  refine ⟨fun c => shapeCast Cert.KernelIdeal.S_ (Cert.KernelIdeal.Hand.result (F := Ideal) m c) Cert.KernelIdeal.Facts₀.shapeCasts_S1x1_S_,
    hrun m ρ, ?_⟩
  refine (θ_run Cert.ReferenceIdeal.defs _ _).mono (fun _ h c => ⟨(h c).1.trans ?_, (h c).2⟩)
    (Cert.ReferenceIdeal.Value.run (F := Ideal) m' ρ')
  -- the reference's term of the SAME arguments is the discrepancy, and so is the kernel's cell
  rw [Cert.ReferenceIdeal.Read.val_main_v71_eq, (hagree c).1, (hagree c).2, href _ _ (hfin c).1 (hfin c).2]
  show _ = shapeCast Cert.KernelIdeal.S_ (Cert.KernelIdeal.Hand.result (F := Ideal) m c) Cert.KernelIdeal.Facts₀.shapeCasts_S1x1_S_
  rw [hres m c (hfin c).1 (hfin c).2]
  -- a constant array reshaped is the same constant
  rfl

end Cert.Proof.Assembly

end
-- ==== Proof.lean ====
/-
  The certificate's proof: a tiled maximum-mean-discrepancy kernel against its plain reference.

  Both programs take two samples X, Y of 4096 vectors in R^256 (given as 4096 x 16 x 16 arrays and flattened) and return

      mean_{m,n} k(X_n, X_m) - 2 mean_{m,n} k(X_n, Y_m) + mean_{m,n} k(Y_n, Y_m),    k(a, b) = exp(-d2(a, b) / 2),

  d2 the squared distance in the form |b|^2 + |a|^2 - 2 <b, a> clamped at zero, the means over 2^24 pairs (Spec.lean).
  The reference forms the three 4096 x 4096 planes.  The kernel walks a 16 x 16 grid of tile pairs and adds, per pair, the
  three 256 x 256 tile sums (combined as S_xx - 2 S_xy + S_yy) to one scratch cell, which it resets at the first point and
  divides by 2^24 at the last.

  The pieces.  The kernel's frame (it runs to the end, faults nowhere, leaves its arguments unchanged), at the word level
  and at the ideal level, is one text generic in the float instance: the body's three control cases run symbolically
  (K/Body, KI/Body), the pipeline's proof data and obligation (Data, Obligation), the launch over @main's three
  segments with each shared input array dealt in two half shares to the two windows that read it (Launch, Region, Run).
  At the ideal level that run also names the result: the scratch cell after all 256 points, over 2^24.  Index by index
  the body's arithmetic on real inputs is the tile sum of real kernels (KI/Layout, Payloads, StepValue), the blocks are
  the rows of the flattened inputs and the 256 tile pairs regroup into the three full double sums (KI/AccValue, SpecSum);
  the reference's generated run, read one operation at a time, is the same real number (Ref/RefValue).  Distributing the
  division over the three sums needs every value real, which is what the precondition — every input finite — gives
  (Finite).  The ideal pass rewrote nothing, so there is nothing to preserve.
-/
import proofs.«135174_j9603546874013_2_alg».proof.Defs
import proofs.«135174_j9603546874013_2_alg».proof.Proof.Gen.Kernel
import proofs.«135174_j9603546874013_2_alg».proof.Proof.Gen.KernelIdeal
import proofs.«135174_j9603546874013_2_alg».proof.Proof.Gen.ReferenceIdeal
import proofs.«135174_j9603546874013_2_alg».proof.Proof.Gen.Pre_finite_inputs
import proofs.«135174_j9603546874013_2_alg».proof.Proof.K.Run
import proofs.«135174_j9603546874013_2_alg».proof.Proof.KI.Run
import proofs.«135174_j9603546874013_2_alg».proof.Proof.KI.AccValue
import proofs.«135174_j9603546874013_2_alg».proof.Proof.Ref.RefValue
import proofs.«135174_j9603546874013_2_alg».proof.Proof.Assembly
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the kernel as printed: terminates, no fault, arguments unchanged
  fun m ρ _ => Cert.Kernel.Hand.frame m ρ,
  -- the same of its idealization
  fun m ρ _ => Cert.KernelIdeal.Hand.frame m ρ,
  -- and of the reference: its generated run with the result dropped
  Cert.Proof.Assembly.frame_ri,
  -- the ideal pass rewrote no operation
  trivial,
  -- at the ideal instance both results are the one real number mmd of the flattened inputs
  Cert.Proof.Assembly.algebraic_of (fun m ρ => Cert.KernelIdeal.Hand.run_main m ρ)
    (fun m c hX hY => Cert.KernelIdeal.HandValue.result_real m c hX hY)
    (fun a0 a1 hX hY => Cert.ReferenceIdeal.HandValue.ref_real a0 a1 hX hY)⟩

end Cert.Proof

end
